-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x10 .f32) (main_arg5 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S4000x512 : Shape := ⟨2, ![4000, 512]⟩
abbrev S4000x16 : Shape := ⟨2, ![4000, 16]⟩
abbrev S3200000x16 : Shape := ⟨2, ![3200000, 16]⟩
abbrev S100000x1 : Shape := ⟨2, ![100000, 1]⟩
abbrev S1x16 : Shape := ⟨2, ![1, 16]⟩
abbrev S100000x10 : Shape := ⟨2, ![100000, 10]⟩
abbrev S10000x16 : Shape := ⟨2, ![10000, 16]⟩
abbrev S10000x10 : Shape := ⟨2, ![10000, 10]⟩
abbrev S3200000x10 : Shape := ⟨2, ![3200000, 10]⟩
abbrev S1x10 : Shape := ⟨2, ![1, 10]⟩

abbrev nBuf : Space → Nat
  | .hbm => 91
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S3200000, .f32⟩
  | .hbm, ⟨39, _⟩ => ⟨S100000, .f32⟩
  | .hbm, ⟨40, _⟩ => ⟨S100000x16, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x16, .f32⟩
  | .hbm, ⟨50, _⟩ => ⟨S3200000x1, .f32⟩
  | .hbm, ⟨51, _⟩ => ⟨S3200000x16, .f32⟩
  | .hbm, ⟨52, _⟩ => ⟨S3200000x16, .f32⟩
  | .hbm, ⟨53, _⟩ => ⟨S_, .f32⟩
  | .hbm, ⟨54, _⟩ => ⟨S100000x16, .f32⟩
  | .hbm, ⟨55, _⟩ => ⟨S3200000x1, .i32⟩
  | .hbm, ⟨56, _⟩ => ⟨S100000x16, .f32⟩
  | .hbm, ⟨57, _⟩ => ⟨S100000x1, .f32⟩
  | .hbm, ⟨58, _⟩ => ⟨S100000x16, .f32⟩
  | .hbm, ⟨59, _⟩ => ⟨S100000x16, .f32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S100000x16, .f32⟩
  | .hbm, ⟨64, _⟩ => ⟨S_, .f32⟩
  | .hbm, ⟨65, _⟩ => ⟨S100000x16, .f32⟩
  | .hbm, ⟨66, _⟩ => ⟨S100000x16, .f32⟩
  | .hbm, ⟨67, _⟩ => ⟨S100000x10, .f32⟩
  | .hbm, ⟨68, _⟩ => ⟨S_, .i32⟩
  | .hbm, ⟨69, _⟩ => ⟨S3200000, .i32⟩
  | .hbm, ⟨70, _⟩ => ⟨S3200000, .i1⟩
  | .hbm, ⟨71, _⟩ => ⟨S_, .i32⟩
  | .hbm, ⟨72, _⟩ => ⟨S3200000, .i32⟩
  | .hbm, ⟨73, _⟩ => ⟨S3200000, .i32⟩
  | .hbm, ⟨74, _⟩ => ⟨S3200000, .i32⟩
  | .hbm, ⟨75, _⟩ => ⟨S3200000x1, .i32⟩
  | .hbm, ⟨76, _⟩ => ⟨S3200000x10, .f32⟩
  | .hbm, ⟨77, _⟩ => ⟨S3200000x1, .f32⟩
  | .hbm, ⟨78, _⟩ => ⟨S3200000x10, .f32⟩
  | .hbm, ⟨79, _⟩ => ⟨S3200000x10, .f32⟩
  | .hbm, ⟨80, _⟩ => ⟨S_, .f32⟩
  | .hbm, ⟨81, _⟩ => ⟨S100000x10, .f32⟩
  | .hbm, ⟨82, _⟩ => ⟨S3200000x1, .i32⟩
  | .hbm, ⟨83, _⟩ => ⟨S100000x10, .f32⟩
  | .hbm, ⟨84, _⟩ => ⟨S100000x1, .f32⟩
  | .hbm, ⟨85, _⟩ => ⟨S100000x10, .f32⟩
  | .hbm, ⟨86, _⟩ => ⟨S100000x10, .f32⟩
  | .hbm, ⟨87, _⟩ => ⟨S100000x10, .f32⟩
  | .hbm, ⟨88, _⟩ => ⟨S1x10, .f32⟩
  | .hbm, ⟨89, _⟩ => ⟨S100000x10, .f32⟩
  | .hbm, ⟨90, _⟩ => ⟨S100000x10, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S10000x16, .f32⟩
  | .local _ .vmem, ⟨6, _⟩ => ⟨S10000x16, .f32⟩
  | .local _ .vmem, ⟨7, _⟩ => ⟨S16x10, .f32⟩
  | .local _ .vmem, ⟨8, _⟩ => ⟨S10000x10, .f32⟩
  | .local _ .vmem, ⟨9, _⟩ => ⟨S10000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x10_S16x10_0_0 : ∀ a, (![0, 0] : Fin 2 → Nat) a + S16x10.size a ≤ S16x10.size a
  h_S16x10 : 0 < S16x10.numel
  inb_S10000x10_S10000x10_0_0 : ∀ a, (![0, 0] : Fin 2 → Nat) a + S10000x10.size a ≤ S10000x10.size a
  h_S10000x10 : 0 < S10000x10.numel
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S4000x512_S512x16_S4000x16_1_0_0_1_n_n_wf : DotDims.WF S4000x512 S512x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x10_S10000x10_1_0_0_1_n_n_wf : DotDims.WF S10000x16 S16x10 S10000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x10.size a ≤ S16x10.size a
  hwx1_1 : ∀ i : grid1.Coords, EltTy.bits .f32 = 32 ∨ (Rect.block (s := S16x10) S16x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x10.size a ≤ S100000x10.size a
  hwx1_2 : ∀ i : grid1.Coords, EltTy.bits .f32 = 32 ∨ (Rect.block (s := S100000x10) S10000x10.size (cc1_transform_2 i) (hinb1_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x10_S10000x10_1_0_0_1_n_n : DotDims S10000x16 S16x10 S10000x10 where
  lhsContracting := [1]
  rhsContracting := [0]
  lhsNonContracting := [0]
  rhsNonContracting := [1]
  lhsBatch := []
  rhsBatch := []
  wf := dot_S10000x16_S16x10_S10000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x10 : Shape := ⟨2, ![100000, 10]⟩
abbrev S3300000x10 : Shape := ⟨2, ![3300000, 10]⟩
abbrev S1x10 : Shape := ⟨2, ![1, 10]⟩

abbrev nBuf : Space → Nat
  | .hbm => 115
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x16, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S100000, .i32⟩
  | .hbm, ⟨63, _⟩ => ⟨S1x3200000, .i32⟩
  | .hbm, ⟨64, _⟩ => ⟨S3200000, .i32⟩
  | .hbm, ⟨65, _⟩ => ⟨S3300000, .i32⟩
  | .hbm, ⟨66, _⟩ => ⟨S1x3200000, .i32⟩
  | .hbm, ⟨67, _⟩ => ⟨S3200000, .i32⟩
  | .hbm, ⟨68, _⟩ => ⟨S3300000, .i32⟩
  | .hbm, ⟨69, _⟩ => ⟨S_, .f32⟩
  | .hbm, ⟨70, _⟩ => ⟨S3300000, .f32⟩
  | .hbm, ⟨71, _⟩ => ⟨S_, .f32⟩
  | .hbm, ⟨72, _⟩ => ⟨S100000, .f32⟩
  | .hbm, ⟨73, _⟩ => ⟨S3300000x1, .i32⟩
  | .hbm, ⟨74, _⟩ => ⟨S100000, .f32⟩
  | .hbm, ⟨75, _⟩ => ⟨S100000, .f32⟩
  | .hbm, ⟨76, _⟩ => ⟨S_, .i32⟩
  | .hbm, ⟨77, _⟩ => ⟨S3300000, .i32⟩
  | .hbm, ⟨78, _⟩ => ⟨S3300000, .i1⟩
  | .hbm, ⟨79, _⟩ => ⟨S_, .i32⟩
  | .hbm, ⟨80, _⟩ => ⟨S3300000, .i32⟩
  | .hbm, ⟨81, _⟩ => ⟨S3300000, .i32⟩
  | .hbm, ⟨82, _⟩ => ⟨S3300000, .i32⟩
  | .hbm, ⟨83, _⟩ => ⟨S3300000x1, .i32⟩
  | .hbm, ⟨84, _⟩ => ⟨S3300000, .f32⟩
  | .hbm, ⟨85, _⟩ => ⟨S_, .i32⟩
  | .hbm, ⟨86, _⟩ => ⟨S3300000, .i32⟩
  | .hbm, ⟨87, _⟩ => ⟨S3300000, .i1⟩
  | .hbm, ⟨88, _⟩ => ⟨S_, .i32⟩
  | .hbm, ⟨89, _⟩ => ⟨S3300000, .i32⟩
  | .hbm, ⟨90, _⟩ => ⟨S3300000, .i32⟩
  | .hbm, ⟨91, _⟩ => ⟨S3300000, .i32⟩
  | .hbm, ⟨92, _⟩ => ⟨S3300000x1, .i32⟩
  | .hbm, ⟨93, _⟩ => ⟨S3300000, .f32⟩
  | .hbm, ⟨94, _⟩ => ⟨S3300000, .f32⟩
  | .hbm, ⟨95, _⟩ => ⟨S100000x10, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000x10, .f32⟩
  | .hbm, ⟨105, _⟩ => ⟨S3300000x1, .f32⟩
  | .hbm, ⟨106, _⟩ => ⟨S3300000x10, .f32⟩
  | .hbm, ⟨107, _⟩ => ⟨S3300000x10, .f32⟩
  | .hbm, ⟨108, _⟩ => ⟨S_, .f32⟩
  | .hbm, ⟨109, _⟩ => ⟨S100000x10, .f32⟩
  | .hbm, ⟨110, _⟩ => ⟨S3300000x1, .i32⟩
  | .hbm, ⟨111, _⟩ => ⟨S100000x10, .f32⟩
  | .hbm, ⟨112, _⟩ => ⟨S1x10, .f32⟩
  | .hbm, ⟨113, _⟩ => ⟨S100000x10, .f32⟩
  | .hbm, ⟨114, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_11 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x10_S100000x10_1_0_0_1_n_n_wf : DotDims.WF S100000x16 S16x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.LibRowGatherScatter.lean ====
/-
  Row gathers and row scatters read at an index.

  `x[idx]` of an array whose first axis has `N` rows, at a flat list of `R` row numbers carried as an `[R, 1]`
  array of start indices, is a `stablehlo.gather` whose result row `r` is operand row `idx[r, 0]`, the start read
  as a signed integer and clamped into `[0, N - 1]` (a flat operand `[N]`, or a matrix `[N, C]` whose rows are
  taken whole).  The accumulating scatter with the same dimension numbers (`segment_sum`: row `r` of the
  updates is added to operand row `idx[r, 0]`, read signed and NOT clamped, an update whose row number leaves
  `[0, N)` being dropped) is, at the extended reals, the operand's element plus the sum over the update rows
  that name this row:  out[p] = x[p] + ∑ r, [idx r = p] · upd[r]   (flat), and
  out[p, q] = x[p, q] + ∑ r, [idx r = p] · upd[r, q]   (rows of width `C`).
-/
import Idealize.ShloMosaic.PureOps.Ideal
import Idealize.ShloMosaic.Lib.ValueIdx

noncomputable section

namespace Idealize.ShloMosaic.RowOps

open Idealize.ShloMosaic Idealize.ShloMosaic.ValueIdx

variable {α : Type}

/-! ## The dimension numbers -/

/-- `x[idx]` of a flat operand `[N]` at `R` row numbers `[R, 1]`: result `[R]`. -/
abbrev rowGather1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- `x[idx]` of a matrix `[N, C]` at `R` row numbers `[R, 1]`, rows taken whole: result `[R, C]`. -/
abbrev rowGather2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The scatter of `R` scalars into a flat operand `[N]` at `R` row numbers `[R, 1]`. -/
abbrev rowScatter1 (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The scatter of `R` rows of width `C` into a matrix `[N, C]` at `R` row numbers `[R, 1]`. -/
abbrev rowScatter2 (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-! ## The gathers at an index -/

/-- Row `r` of a flat row gather: the operand at the row number `idx[r, 0]`, read signed and clamped. -/
theorem gather_rows1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (rowGather1 N R wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (rowGather1 N R wf).start y idx 0 + (rowGather1 N R wf).batchCoord y 0 + (rowGather1 N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather1 N R wf).startIndexMap from List.mem_singleton.mpr rfl)]
  have hsi : (rowGather1 N R wf).siIdx y ⟨List.idxOf (0 : Fin 1) (rowGather1 N R wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- Element `(r, q)` of a whole-row gather: the operand at row `idx[r, 0]` (read signed and clamped), column `q`. -/
theorem gather_rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowGather2 N C R wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (rowGather2 N C R wf).start y idx 0 + (rowGather2 N C R wf).batchCoord y 0 + (rowGather2 N C R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 N C R wf).startIndexMap from List.mem_singleton.mpr rfl)]
    have hsi : (rowGather2 N C R wf).siIdx y ⟨List.idxOf (0 : Fin 2) (rowGather2 N C R wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowGather2 N C R wf).start y idx 1 + (rowGather2 N C R wf).batchCoord y 1 + (rowGather2 N C R wf).offCoord y 1 = (y 1).val
    rw [GatherDims.batchCoord_eq_zero _ _ _ List.not_mem_nil]
    unfold GatherDims.start
    rw [dif_neg (show ¬ (1 : Fin 2) ∈ ([0] : List (Fin 2)) by decide)]
    simp only [Nat.zero_add, Nat.add_zero]
    rfl

/-! ## Where a scattered row lands -/

/-- Update `j` of a flat row scatter lands on element `p` exactly when its row number, read signed, is `p`. -/
theorem scatter_rows1_lands {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (p : Fin N) :
    (rowScatter1 N R wf).resultIdx? j idx = some (ix1 p) ↔ (idx (ix2 (j 0) (0 : Fin 1))).toInt = (p.val : ℤ) := by
  have hsi : (rowScatter1 N R wf).siIdx j ⟨List.idxOf (0 : Fin 1) (rowScatter1 N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  have hstart : ∀ a : Fin 1, (rowScatter1 N R wf).start j idx a = (idx (ix2 (j 0) (0 : Fin 1))).toInt := by
    intro a
    obtain rfl : a = 0 := Subsingleton.elim _ _
    unfold ScatterDims.start
    rw [dif_pos (show (0 : Fin 1) ∈ (rowScatter1 N R wf).scatterDimsToOperandDims from List.mem_singleton.mpr rfl), hsi]
    rfl
  have hwin : ∀ a : Fin 1, (rowScatter1 N R wf).window j a = 0 := by
    intro a
    obtain rfl : a = 0 := Subsingleton.elim _ _
    unfold ScatterDims.window
    rw [dif_neg (show ¬ (0 : Fin 1) ∈ ((⟨1, ![N]⟩ : Shape).kept [0]) by simp [Shape.kept])]
  unfold ScatterDims.resultIdx?
  split
  · next h =>
    have h0 := h 0
    rw [hstart, hwin] at h0
    rw [Option.some.injEq]
    constructor
    · intro e
      have := congrArg (fun f => (f 0).val) e
      simp only [hstart, hwin] at this
      change ((idx (ix2 (j 0) (0 : Fin 1))).toInt + ((0 : Nat) : ℤ)).toNat = p.val at this
      omega
    · intro e
      funext a
      obtain rfl : a = 0 := Subsingleton.elim _ _
      refine Fin.ext ?_
      show ((rowScatter1 N R wf).start j idx 0 + ((rowScatter1 N R wf).window j 0 : ℤ)).toNat = p.val
      rw [hstart, hwin]; omega
  · next h =>
    constructor
    · intro e; cases e
    · intro e
      exfalso; apply h
      intro a
      obtain rfl : a = 0 := Subsingleton.elim _ _
      rw [hstart, hwin]
      have := p.isLt
      show 0 ≤ _ + ((0 : Nat) : ℤ) ∧ _ + ((0 : Nat) : ℤ) < ((N : Nat) : ℤ)
      omega

/-- Update `j` of a whole-row scatter lands on element `(p, q)` exactly when its row number, read signed, is `p`
    and its column is `q`. -/
theorem scatter_rows2_lands {N C R w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (p : Fin N) (q : Fin C) :
    (rowScatter2 N C R wf).resultIdx? j idx = some (ix2 p q)
      ↔ (idx (ix2 (j 0) (0 : Fin 1))).toInt = (p.val : ℤ) ∧ j 1 = q := by
  have hsi : (rowScatter2 N C R wf).siIdx j ⟨List.idxOf (0 : Fin 2) (rowScatter2 N C R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  have hstart0 : (rowScatter2 N C R wf).start j idx 0 = (idx (ix2 (j 0) (0 : Fin 1))).toInt := by
    unfold ScatterDims.start
    rw [dif_pos (show (0 : Fin 2) ∈ (rowScatter2 N C R wf).scatterDimsToOperandDims from List.mem_singleton.mpr rfl), hsi]
    rfl
  have hstart1 : (rowScatter2 N C R wf).start j idx 1 = 0 := by
    unfold ScatterDims.start
    rw [dif_neg (show ¬ (1 : Fin 2) ∈ ([0] : List (Fin 2)) by decide)]
  have hwin0 : (rowScatter2 N C R wf).window j 0 = 0 := by
    unfold ScatterDims.window
    rw [dif_neg (show ¬ (0 : Fin 2) ∈ ((⟨2, ![N, C]⟩ : Shape).kept [0]) by simp [Shape.kept])]
  have hwin1 : (rowScatter2 N C R wf).window j 1 = (j 1).val := by
    unfold ScatterDims.window
    rw [dif_pos (show (1 : Fin 2) ∈ ((⟨2, ![N, C]⟩ : Shape).kept [0]) by simp [Shape.kept])]
    rfl
  unfold ScatterDims.resultIdx?
  split
  · next h =>
    have h0 := h 0
    rw [hstart0, hwin0] at h0
    rw [Option.some.injEq]
    constructor
    · intro e
      have e0 := congrArg (fun f => (f 0).val) e
      have e1 := congrArg (fun f => (f 1).val) e
      simp only [hstart0, hwin0, hstart1, hwin1] at e0 e1
      change ((idx (ix2 (j 0) (0 : Fin 1))).toInt + ((0 : Nat) : ℤ)).toNat = p.val at e0
      change ((0 : ℤ) + (((j 1).val : Nat) : ℤ)).toNat = q.val at e1
      refine ⟨by omega, Fin.ext (by omega)⟩
    · rintro ⟨e, rfl⟩
      funext a
      refine Fin.ext ?_
      match a with
      | ⟨0, _⟩ =>
        show ((rowScatter2 N C R wf).start j idx 0 + ((rowScatter2 N C R wf).window j 0 : ℤ)).toNat = p.val
        rw [hstart0, hwin0]; omega
      | ⟨1, _⟩ =>
        show ((rowScatter2 N C R wf).start j idx 1 + ((rowScatter2 N C R wf).window j 1 : ℤ)).toNat = (j 1).val
        rw [hstart1, hwin1]; omega
  · next h =>
    constructor
    · intro e; cases e
    · rintro ⟨e, rfl⟩
      exfalso; apply h
      intro a
      match a with
      | ⟨0, _⟩ =>
        show 0 ≤ (rowScatter2 N C R wf).start j idx 0 + ((rowScatter2 N C R wf).window j 0 : ℤ)
          ∧ (rowScatter2 N C R wf).start j idx 0 + ((rowScatter2 N C R wf).window j 0 : ℤ) < ((N : Nat) : ℤ)
        rw [hstart0, hwin0]
        have := p.isLt
        omega
      | ⟨1, _⟩ =>
        show 0 ≤ (rowScatter2 N C R wf).start j idx 1 + ((rowScatter2 N C R wf).window j 1 : ℤ)
          ∧ (rowScatter2 N C R wf).start j idx 1 + ((rowScatter2 N C R wf).window j 1 : ℤ) < ((C : Nat) : ℤ)
        rw [hstart1, hwin1]
        have : (j 1).val < C := (j 1).isLt
        omega

/-! ## The accumulating scatters at an index -/

/-- A flat index is its one coordinate. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp idxEquiv1.symm f).symm

/-- THE FLAT ROW SCATTER AT `p`: the operand's element plus the updates whose row number is `p`. -/
theorem scatterAdd_rows1_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (p : Fin N) :
    Ideal.hostScatterAdd (rowScatter1 N R wf) x idx upd (ix1 p)
      = x (ix1 p) + ∑ r : Fin R, if (idx (ix2 r (0 : Fin 1))).toInt = (p.val : ℤ) then upd (ix1 r) else 0 := by
  unfold Ideal.hostScatterAdd
  congr 1
  rw [Finset.sum_filter, sum_idx1]
  refine Finset.sum_congr rfl fun r _ => ?_
  exact if_congr (scatter_rows1_lands wf idx (ix1 r) p) rfl rfl

/-- THE WHOLE-ROW SCATTER AT `(p, q)`: the operand's element plus column `q` of the update rows whose row number is `p`. -/
theorem scatterAdd_rows2_apply {N C R w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (q : Fin C) :
    Ideal.hostScatterAdd (rowScatter2 N C R wf) x idx upd (ix2 p q)
      = x (ix2 p q) + ∑ r : Fin R, if (idx (ix2 r (0 : Fin 1))).toInt = (p.val : ℤ) then upd (ix2 r q) else 0 := by
  unfold Ideal.hostScatterAdd
  congr 1
  rw [Finset.sum_filter, sum_idx2]
  refine Finset.sum_congr rfl fun r _ => ?_
  have key : ∀ c : Fin C, (rowScatter2 N C R wf).resultIdx? (ix2 r c) idx = some (ix2 p q)
      ↔ ((idx (ix2 r (0 : Fin 1))).toInt = (p.val : ℤ) ∧ c = q) := fun c => scatter_rows2_lands wf idx (ix2 r c) p q
  rw [Finset.sum_congr rfl (fun c _ => if_congr (key c) rfl rfl)]
  by_cases hr : (idx (ix2 r (0 : Fin 1))).toInt = (p.val : ℤ)
  · simp only [hr, true_and, if_true]
    rw [Finset.sum_ite_eq' Finset.univ q (fun c => upd (ix2 r c))]
    simp
  · simp only [hr, false_and, if_false, Finset.sum_const_zero]

end Idealize.ShloMosaic.RowOps

end
-- ==== Proof.GcnAlgebra.lean ====
/-
  One graph-convolution aggregation, written two ways, at the extended reals.

  A graph on `N` nodes is given by `E` edges, edge `r` going from node `S r` to node `D r` (row numbers as
  32-bit integers; a negative number is read from the end, a number past the end is clamped when it is gathered
  and dropped when it is scattered).  With self-loops the degree of node `p` is  deg p = #{r | D r = p} + 1,
  `dinv = deg^(-1/2)`, an edge weighs  nrm r = dinv (S r) · dinv (D r)  and the loop at `p` weighs `dinv p · dinv p`;
  the aggregation of node features `h : [N, C]` is
      out[p, q] = ∑ r, [D r = p] · h[S r, q] · nrm r  +  h[p, q] · dinv p · dinv p.
  THE FIRST WAY appends the `N` loops `(k, k)` to the edge list (a concatenation with `iota`) and runs ONE gather,
  ONE scatter-add over `E + N` rows.  THE SECOND WAY gathers and scatter-adds the `E` real edges only and adds the
  loop term as a dense product.  A sum over `E + N` rows is the sum over the first `E` plus the sum over the last `N`;
  of the last `N` rows exactly row `k = p` lands on node `p`.  What remains is associativity of `+` and
  commutativity of `·`, which hold on all extended reals: no finiteness is used.
-/
import Idealize.ShloMosaic.PureOps.Ideal
import Idealize.ShloMosaic.Lib.ValueIdx
import Idealize.ShloMosaic.Lib.Pipeline.Value
import proofs.«171064_j52295521796842_2_alg».proof.Proof.LibRowGatherScatter

noncomputable section

namespace Cert.Gcn

open Idealize.ShloMosaic Idealize.ShloMosaic.ValueIdx Idealize.ShloMosaic.RowOps

/-- The rank-zero shape of a scalar constant. -/
abbrev S0 : Shape := ⟨0, ![]⟩

/-- The shape facts one aggregation over `R` edge rows, `N` nodes and `C` feature columns cites. -/
structure RowFacts (N C R : Nat) : Prop where
  b0R : S0.BroadcastsInDim ⟨1, ![R]⟩ (![] : Fin 0 → Fin 1)
  bcol : (⟨1, ![R]⟩ : Shape).BroadcastsInDim ⟨2, ![R, 1]⟩ (![0] : Fin 1 → Fin 2)
  bwide : (⟨2, ![R, 1]⟩ : Shape).BroadcastsInDim ⟨2, ![R, C]⟩ (![0, 1] : Fin 2 → Fin 2)
  b0N : S0.BroadcastsInDim ⟨1, ![N]⟩ (![] : Fin 0 → Fin 1)
  b0NC : S0.BroadcastsInDim ⟨2, ![N, C]⟩ (![] : Fin 0 → Fin 2)
  g1 : GatherDims.WF ⟨1, ![N]⟩ ⟨2, ![R, 1]⟩ ⟨1, ![R]⟩ [] [0] [] [0] [] 1 ![1]
  g2 : GatherDims.WF ⟨2, ![N, C]⟩ ⟨2, ![R, 1]⟩ ⟨2, ![R, C]⟩ [1] [0] [] [0] [] 1 ![1, C]
  s1 : ScatterDims.WF ⟨1, ![N]⟩ ⟨2, ![R, 1]⟩ ⟨1, ![R]⟩ [] [0] [0] 1
  s2 : ScatterDims.WF ⟨2, ![N, C]⟩ ⟨2, ![R, 1]⟩ ⟨2, ![R, C]⟩ [1] [0] [0] 1

variable {N C R : Nat}

/-! ## The pieces, as the programs spell them -/

/-- The number of edge rows ending at each node: a scatter-add of ones into zeros. -/
def degSum (hf : RowFacts N C R) (D : IVec ⟨1, ![R]⟩ 32) : FVec Ideal ⟨1, ![N]⟩ .f32 :=
  Host.scatterAdd (rowScatter1 N R hf.s1)
    (broadcastInDim ⟨1, ![N]⟩ ![] hf.b0N (constant (F := Ideal) S0 .f32 0x00000000#32))
    (broadcastInDim ⟨2, ![R, 1]⟩ ![0] hf.bcol D)
    (broadcastInDim ⟨1, ![R]⟩ ![] hf.b0R (constant (F := Ideal) S0 .f32 0x3F800000#32))

/-- Row numbers made ready for a gather: a negative one has `nw` added; as an `[R, 1]` array. -/
def normIdx (hf : RowFacts N C R) (nw : BitVec 32) (a : IVec ⟨1, ![R]⟩ 32) : IVec ⟨2, ![R, 1]⟩ 32 :=
  broadcastInDim ⟨2, ![R, 1]⟩ ![0] hf.bcol
    (select (cmpi .slt a (broadcastInDim ⟨1, ![R]⟩ ![] hf.b0R (constantI S0 32 0#32)))
      (addi a (broadcastInDim ⟨1, ![R]⟩ ![] hf.b0R (constantI S0 32 nw))) a)

/-- The weight of each edge row: `dinv` at its source times `dinv` at its target. -/
def edgeNorm (hf : RowFacts N C R) (nw : BitVec 32) (dinv : FVec Ideal ⟨1, ![N]⟩ .f32) (S D : IVec ⟨1, ![R]⟩ 32) :
    FVec Ideal ⟨1, ![R]⟩ .f32 :=
  mulf (Host.gather (rowGather1 N R hf.g1) dinv (normIdx hf nw S))
    (Host.gather (rowGather1 N R hf.g1) dinv (normIdx hf nw D))

/-- The weighted scatter-add of the source rows of `h` onto the target nodes. -/
def aggregate (hf : RowFacts N C R) (nw : BitVec 32) (h : FVec Ideal ⟨2, ![N, C]⟩ .f32) (S D : IVec ⟨1, ![R]⟩ 32)
    (nrm : FVec Ideal ⟨1, ![R]⟩ .f32) : FVec Ideal ⟨2, ![N, C]⟩ .f32 :=
  Host.scatterAdd (rowScatter2 N C R hf.s2)
    (broadcastInDim ⟨2, ![N, C]⟩ ![] hf.b0NC (constant (F := Ideal) S0 .f32 0x00000000#32))
    (broadcastInDim ⟨2, ![R, 1]⟩ ![0] hf.bcol D)
    (mulf (Host.gather (rowGather2 N C R hf.g2) h (normIdx hf nw S))
      (broadcastInDim ⟨2, ![R, C]⟩ ![0, 1] hf.bwide (broadcastInDim ⟨2, ![R, 1]⟩ ![0] hf.bcol nrm)))

/-! ## Reading them at an index -/

/-- A negative row number has `nw` added. -/
def wrap (nw w : BitVec 32) : BitVec 32 := Scalar.select (IntOp.cmpi .slt w 0#32) (IntOp.addi w nw) w

/-- A row number read signed and clamped into `[0, N - 1]`. -/
def clampRow (hN : 0 < N) (w : BitVec 32) : Fin N := ⟨min w.toInt.toNat (N - 1), by omega⟩

theorem col_apply {α : Type} {R : Nat} (hb : (⟨1, ![R]⟩ : Shape).BroadcastsInDim ⟨2, ![R, 1]⟩ (![0] : Fin 1 → Fin 2))
    (x : (⟨1, ![R]⟩ : Shape).Idx → α) (r : Fin R) (z : Fin 1) :
    broadcastInDim ⟨2, ![R, 1]⟩ ![0] hb x (ix2 r z) = x (ix1 r) := by
  refine broadcastInDim_apply _ hb x _ (ix1 r) (fun a => ?_)
  obtain rfl : a = 0 := Subsingleton.elim _ _
  show r.val = if R = 1 then 0 else r.val
  split
  · next h => have := r.isLt; omega
  · rfl

theorem wide_apply {α : Type} {R C : Nat}
    (hb : (⟨2, ![R, 1]⟩ : Shape).BroadcastsInDim ⟨2, ![R, C]⟩ (![0, 1] : Fin 2 → Fin 2))
    (x : (⟨2, ![R, 1]⟩ : Shape).Idx → α) (r : Fin R) (q : Fin C) :
    broadcastInDim ⟨2, ![R, C]⟩ ![0, 1] hb x (ix2 r q) = x (ix2 r (0 : Fin 1)) := by
  refine broadcastInDim_apply _ hb x _ (ix2 r (0 : Fin 1)) (fun a => ?_)
  match a with
  | ⟨0, _⟩ =>
    show r.val = if R = 1 then 0 else r.val
    split
    · next h => have := r.isLt; omega
    · rfl
  | ⟨1, _⟩ =>
    show (0 : Nat) = if (1 : Nat) = 1 then 0 else q.val
    rw [if_pos rfl]

theorem normIdx_apply (hf : RowFacts N C R) (nw : BitVec 32) (a : IVec ⟨1, ![R]⟩ 32) (r : Fin R) (z : Fin 1) :
    normIdx hf nw a (ix2 r z) = wrap nw (a (ix1 r)) := by
  unfold normIdx
  rw [col_apply]
  rfl

theorem degSum_apply (hf : RowFacts N C R) (D : IVec ⟨1, ![R]⟩ 32) (p : Fin N) :
    degSum hf D (ix1 p) = Ideal.ofBits .f32 0x00000000#32
      + ∑ r : Fin R, if (D (ix1 r)).toInt = (p.val : ℤ) then Ideal.ofBits .f32 0x3F800000#32 else 0 := by
  unfold degSum
  show Ideal.hostScatterAdd (rowScatter1 N R hf.s1) _ _ _ (ix1 p) = _
  rw [scatterAdd_rows1_apply]
  congr 1
  refine Finset.sum_congr rfl fun r _ => ?_
  rw [col_apply]
  rfl

theorem edgeNorm_apply (hN : 0 < N) (hf : RowFacts N C R) (nw : BitVec 32) (dinv : FVec Ideal ⟨1, ![N]⟩ .f32)
    (S D : IVec ⟨1, ![R]⟩ 32) (r : Fin R) :
    edgeNorm hf nw dinv S D (ix1 r)
      = dinv (ix1 (clampRow hN (wrap nw (S (ix1 r))))) * dinv (ix1 (clampRow hN (wrap nw (D (ix1 r))))) := by
  unfold edgeNorm
  show Host.gather (rowGather1 N R hf.g1) dinv (normIdx hf nw S) (ix1 r)
    * Host.gather (rowGather1 N R hf.g1) dinv (normIdx hf nw D) (ix1 r) = _
  rw [gather_rows1_apply hN, gather_rows1_apply hN]
  show dinv (ix1 ⟨min (normIdx hf nw S (ix2 r (0 : Fin 1))).toInt.toNat (N - 1), _⟩)
    * dinv (ix1 ⟨min (normIdx hf nw D (ix2 r (0 : Fin 1))).toInt.toNat (N - 1), _⟩) = _
  simp only [normIdx_apply]
  rfl

theorem aggregate_apply (hN : 0 < N) (hf : RowFacts N C R) (nw : BitVec 32) (h : FVec Ideal ⟨2, ![N, C]⟩ .f32)
    (S D : IVec ⟨1, ![R]⟩ 32) (nrm : FVec Ideal ⟨1, ![R]⟩ .f32) (p : Fin N) (q : Fin C) :
    aggregate hf nw h S D nrm (ix2 p q) = Ideal.ofBits .f32 0x00000000#32
      + ∑ r : Fin R, if (D (ix1 r)).toInt = (p.val : ℤ)
          then h (ix2 (clampRow hN (wrap nw (S (ix1 r)))) q) * nrm (ix1 r) else 0 := by
  unfold aggregate
  show Ideal.hostScatterAdd (rowScatter2 N C R hf.s2) _ _ _ (ix2 p q) = _
  rw [scatterAdd_rows2_apply]
  congr 1
  refine Finset.sum_congr rfl fun r _ => ?_
  rw [col_apply]
  refine if_congr Iff.rfl ?_ rfl
  show Host.gather (rowGather2 N C R hf.g2) h (normIdx hf nw S) (ix2 r q)
    * broadcastInDim ⟨2, ![R, C]⟩ ![0, 1] hf.bwide (broadcastInDim ⟨2, ![R, 1]⟩ ![0] hf.bcol nrm) (ix2 r q) = _
  rw [gather_rows2_apply hN, wide_apply, col_apply]
  show h (ix2 ⟨min (normIdx hf nw S (ix2 r (0 : Fin 1))).toInt.toNat (N - 1), _⟩ q) * nrm (ix1 r) = _
  simp only [normIdx_apply]
  rfl

/-! ## The loops appended to the edge list -/

section Loops
variable {E : Nat}

/-- A list of `E` row numbers with the `N` numbers `0, 1, …, N - 1` appended. -/
def withLoops (hc : Shape.Concatenates [⟨1, ![E]⟩, ⟨1, ![N]⟩] ⟨1, ![E + N]⟩ 0) (A : IVec ⟨1, ![E]⟩ 32) :
    IVec ⟨1, ![E + N]⟩ 32 :=
  concatenate ⟨1, ![E + N]⟩ 0 [⟨⟨1, ![E]⟩, A⟩, ⟨⟨1, ![N]⟩, iotaInDim ⟨1, ![N]⟩ 32 0⟩] hc

theorem withLoops_left (hc : Shape.Concatenates [⟨1, ![E]⟩, ⟨1, ![N]⟩] ⟨1, ![E + N]⟩ 0) (A : IVec ⟨1, ![E]⟩ 32)
    (r : Fin E) : withLoops hc A (ix1 (Fin.castAdd N r)) = A (ix1 r) :=
  concatenate_pair_apply_left 0 A _ hc (ix1 (Fin.castAdd N r)) rfl (ix1 r) (fun b => by
    obtain rfl : b = 0 := Subsingleton.elim _ _
    rfl)

theorem withLoops_right (hc : Shape.Concatenates [⟨1, ![E]⟩, ⟨1, ![N]⟩] ⟨1, ![E + N]⟩ 0) (A : IVec ⟨1, ![E]⟩ 32)
    (k : Fin N) : withLoops hc A (ix1 (Fin.natAdd E k)) = BitVec.ofNat 32 k.val :=
  concatenate_pair_apply_right 0 A (iotaInDim ⟨1, ![N]⟩ 32 0) hc (ix1 (Fin.natAdd E k)) rfl rfl (ix1 k)
    (fun b hb => absurd (Subsingleton.elim _ _) hb) (by show k.val + E = E + k.val; omega)

/-- A small natural number, as a 32-bit word read signed, is itself. -/
theorem toInt_ofNat_of_lt {k : Nat} (hk : k < 2 ^ 31) : (BitVec.ofNat 32 k).toInt = (k : ℤ) := by
  have h1 : (BitVec.ofNat 32 k).toNat = k := by
    rw [BitVec.toNat_ofNat]; exact Nat.mod_eq_of_lt (by omega)
  rw [BitVec.toInt_eq_toNat_of_lt (by rw [h1]; omega), h1]

/-- A loop's row number is not negative: it is gathered as it is. -/
theorem wrap_ofNat {k : Nat} (nw : BitVec 32) (hk : k < 2 ^ 31) : wrap nw (BitVec.ofNat 32 k) = BitVec.ofNat 32 k := by
  unfold wrap
  have hlt : (BitVec.ofNat 32 k).slt 0#32 = false := by
    simp [BitVec.slt, toInt_ofNat_of_lt hk]
  have : IntOp.cmpi .slt (BitVec.ofNat 32 k) 0#32 = 0#1 := by
    show BitVec.ofBool ((BitVec.ofNat 32 k).slt 0#32) = 0#1
    rw [hlt]; rfl
  rw [this, select_zero]

theorem clampRow_ofNat (hN : 0 < N) (hN31 : N ≤ 2 ^ 31) (k : Fin N) : clampRow hN (BitVec.ofNat 32 k.val) = k := by
  have hk := k.isLt
  apply Fin.ext
  show min (BitVec.ofNat 32 k.val).toInt.toNat (N - 1) = k.val
  rw [toInt_ofNat_of_lt (by omega)]
  omega

/-- Loop `k` lands on node `p` exactly when `k = p`. -/
theorem loop_lands (hN31 : N ≤ 2 ^ 31) (k p : Fin N) : (BitVec.ofNat 32 k.val).toInt = (p.val : ℤ) ↔ k = p := by
  have hk := k.isLt
  rw [toInt_ofNat_of_lt (by omega)]
  constructor
  · intro h; exact Fin.ext (by omega)
  · rintro rfl; rfl

/-- THE DEGREES: counting the edge rows with the loops appended is counting the edges and adding one. -/
theorem degSum_withLoops (hN31 : N ≤ 2 ^ 31) (hfR : RowFacts N C (E + N)) (hfK : RowFacts N C E)
    (hc : Shape.Concatenates [⟨1, ![E]⟩, ⟨1, ![N]⟩] ⟨1, ![E + N]⟩ 0) (D : IVec ⟨1, ![E]⟩ 32) :
    degSum hfR (withLoops hc D)
      = addf (degSum hfK D) (broadcastInDim ⟨1, ![N]⟩ ![] hfK.b0N (constant (F := Ideal) S0 .f32 0x3F800000#32)) := by
  funext i
  obtain ⟨p, rfl⟩ : ∃ p : Fin N, i = ix1 p := ⟨i 0, eq_ix1 i⟩
  show _ = degSum hfK D (ix1 p) + Ideal.ofBits .f32 0x3F800000#32
  rw [degSum_apply, degSum_apply, Fin.sum_univ_add, add_assoc]
  congr 2
  · refine Finset.sum_congr rfl fun r _ => ?_
    rw [withLoops_left]
  · rw [Finset.sum_congr rfl (fun k _ => if_congr
      (show (withLoops hc D (ix1 (Fin.natAdd E k))).toInt = (p.val : ℤ) ↔ k = p by
        rw [withLoops_right]; exact loop_lands hN31 k p) rfl rfl)]
    rw [Finset.sum_ite_eq' Finset.univ p (fun _ => Ideal.ofBits .f32 0x3F800000#32)]
    simp

/-- THE AGGREGATION: one gather and scatter-add over the edges with the loops appended is the gather and
    scatter-add over the edges plus the dense loop term `dinv · dinv · h`. -/
theorem aggregate_withLoops (hN : 0 < N) (hN31 : N ≤ 2 ^ 31) (hfR : RowFacts N C (E + N)) (hfK : RowFacts N C E)
    (bcolN : (⟨1, ![N]⟩ : Shape).BroadcastsInDim ⟨2, ![N, 1]⟩ (![0] : Fin 1 → Fin 2))
    (bwideN : (⟨2, ![N, 1]⟩ : Shape).BroadcastsInDim ⟨2, ![N, C]⟩ (![0, 1] : Fin 2 → Fin 2)) (hc : Shape.Concatenates [⟨1, ![E]⟩, ⟨1, ![N]⟩] ⟨1, ![E + N]⟩ 0) (nw : BitVec 32)
    (dinv : FVec Ideal ⟨1, ![N]⟩ .f32) (h : FVec Ideal ⟨2, ![N, C]⟩ .f32) (S D : IVec ⟨1, ![E]⟩ 32) :
    aggregate hfR nw h (withLoops hc S) (withLoops hc D) (edgeNorm hfR nw dinv (withLoops hc S) (withLoops hc D))
      = addf (aggregate hfK nw h S D (edgeNorm hfK nw dinv S D))
          (mulf (broadcastInDim ⟨2, ![N, C]⟩ ![0, 1] bwideN (broadcastInDim ⟨2, ![N, 1]⟩ ![0] bcolN (mulf dinv dinv))) h) := by
  funext i
  obtain ⟨p, q, rfl⟩ : ∃ (p : Fin N) (q : Fin C), i = ix2 p q := ⟨i 0, i 1, eq_ix2 i⟩
  show _ = aggregate hfK nw h S D (edgeNorm hfK nw dinv S D) (ix2 p q)
    + broadcastInDim ⟨2, ![N, C]⟩ ![0, 1] bwideN (broadcastInDim ⟨2, ![N, 1]⟩ ![0] bcolN (mulf dinv dinv)) (ix2 p q)
      * h (ix2 p q)
  rw [aggregate_apply hN, aggregate_apply hN, wide_apply, col_apply, Fin.sum_univ_add, add_assoc]
  congr 2
  · refine Finset.sum_congr rfl fun r _ => ?_
    rw [withLoops_left, withLoops_left, edgeNorm_apply hN, edgeNorm_apply hN, withLoops_left, withLoops_left]
  · have hterm : ∀ k : Fin N,
        (if (withLoops hc D (ix1 (Fin.natAdd E k))).toInt = (p.val : ℤ)
          then h (ix2 (clampRow hN (wrap nw (withLoops hc S (ix1 (Fin.natAdd E k))))) q)
            * edgeNorm hfR nw dinv (withLoops hc S) (withLoops hc D) (ix1 (Fin.natAdd E k)) else 0)
        = if k = p then h (ix2 k q) * (dinv (ix1 k) * dinv (ix1 k)) else 0 := by
      intro k
      have hk : k.val < 2 ^ 31 := by have := k.isLt; omega
      rw [edgeNorm_apply hN, withLoops_right, withLoops_right, wrap_ofNat nw hk, clampRow_ofNat hN hN31]
      exact if_congr (loop_lands hN31 k p) rfl rfl
    rw [Finset.sum_congr rfl (fun k _ => hterm k),
      Finset.sum_ite_eq' Finset.univ p (fun k => h (ix2 k q) * (dinv (ix1 k) * dinv (ix1 k)))]
    simp only [Finset.mem_univ, if_true]
    exact mul_comm _ _

/-! ## One layer, both ways -/

/-- THE FIRST WAY: the loops appended to the edge list; one gather, one scatter-add. -/
def layerLoops (hf : RowFacts N C (E + N)) (hc : Shape.Concatenates [⟨1, ![E]⟩, ⟨1, ![N]⟩] ⟨1, ![E + N]⟩ 0)
    (nw : BitVec 32) (h : FVec Ideal ⟨2, ![N, C]⟩ .f32) (S D : IVec ⟨1, ![E]⟩ 32) : FVec Ideal ⟨2, ![N, C]⟩ .f32 :=
  aggregate hf nw h (withLoops hc S) (withLoops hc D)
    (edgeNorm hf nw (Host.rsqrt (degSum hf (withLoops hc D))) (withLoops hc S) (withLoops hc D))

/-- THE SECOND WAY: the real edges gathered and scatter-added, the loop term added densely. -/
def layerDense (hf : RowFacts N C E)
    (bcolN : (⟨1, ![N]⟩ : Shape).BroadcastsInDim ⟨2, ![N, 1]⟩ (![0] : Fin 1 → Fin 2))
    (bwideN : (⟨2, ![N, 1]⟩ : Shape).BroadcastsInDim ⟨2, ![N, C]⟩ (![0, 1] : Fin 2 → Fin 2))
    (nw : BitVec 32) (h : FVec Ideal ⟨2, ![N, C]⟩ .f32) (S D : IVec ⟨1, ![E]⟩ 32) : FVec Ideal ⟨2, ![N, C]⟩ .f32 :=
  addf (aggregate hf nw h S D
      (edgeNorm hf nw (Host.rsqrt (addf (degSum hf D)
        (broadcastInDim ⟨1, ![N]⟩ ![] hf.b0N (constant (F := Ideal) S0 .f32 0x3F800000#32)))) S D))
    (mulf (broadcastInDim ⟨2, ![N, C]⟩ ![0, 1] bwideN (broadcastInDim ⟨2, ![N, 1]⟩ ![0] bcolN
      (mulf (Host.rsqrt (addf (degSum hf D)
          (broadcastInDim ⟨1, ![N]⟩ ![] hf.b0N (constant (F := Ideal) S0 .f32 0x3F800000#32))))
        (Host.rsqrt (addf (degSum hf D)
          (broadcastInDim ⟨1, ![N]⟩ ![] hf.b0N (constant (F := Ideal) S0 .f32 0x3F800000#32))))))) h)

/-- The two ways agree on every extended real. -/
theorem layerLoops_eq_layerDense (hN : 0 < N) (hN31 : N ≤ 2 ^ 31) (hfR : RowFacts N C (E + N)) (hfK : RowFacts N C E)
    (bcolN : (⟨1, ![N]⟩ : Shape).BroadcastsInDim ⟨2, ![N, 1]⟩ (![0] : Fin 1 → Fin 2))
    (bwideN : (⟨2, ![N, 1]⟩ : Shape).BroadcastsInDim ⟨2, ![N, C]⟩ (![0, 1] : Fin 2 → Fin 2))
    (hc : Shape.Concatenates [⟨1, ![E]⟩, ⟨1, ![N]⟩] ⟨1, ![E + N]⟩ 0) (nw : BitVec 32)
    (h : FVec Ideal ⟨2, ![N, C]⟩ .f32) (S D : IVec ⟨1, ![E]⟩ 32) :
    layerLoops hfR hc nw h S D = layerDense hfK bcolN bwideN nw h S D := by
  unfold layerLoops layerDense
  rw [degSum_withLoops hN31 hfR hfK hc D]
  exact aggregate_withLoops hN hN31 hfR hfK bcolN bwideN hc nw _ h S D

end Loops

end Cert.Gcn

end
-- ==== Proof.RefSide.lean ====
/-
  The reference network as two layers of "the first way" (GcnAlgebra): each GCN layer of the reference appends
  the self-loops to the edge list and runs one gather and one scatter-add over all `3200000 + 100000` rows.
  The stages of the reference's run are, operation for operation, the generic pieces at `N = 100000` nodes,
  `E = 3200000` edges and `C = 16` (first layer) or `C = 10` (second layer) columns.
-/
import proofs.«171064_j52295521796842_2_alg».proof.Proof.Gen.ReferenceIdeal.Read
import proofs.«171064_j52295521796842_2_alg».proof.Proof.GcnAlgebra

noncomputable section

namespace Cert.GcnRef

open Idealize.ShloMosaic Idealize.ShloMosaic.ValueIdx Idealize.ShloMosaic.RowOps
open Cert.ReferenceIdeal Cert.ReferenceIdeal.Read Cert.ReferenceIdeal.Facts₀ Cert.Gcn

theorem factsR16 : RowFacts 100000 16 (3200000 + 100000) :=
  ⟨bcast_S_S3300000, bcast_S3300000_S3300000x1_0, bcast_S3300000x1_S3300000x16_0_1, bcast_S_S100000, bcast_S_S100000x16,
    gather_S100000_S3300000x1_S3300000_n_0_n_n_0_1_1_wf, gather_S100000x16_S3300000x1_S3300000x16_1_0_n_n_0_1_116_wf,
    scatter_S100000_S3300000x1_S3300000_n_0_0_1_wf, scatter_S100000x16_S3300000x1_S3300000x16_1_0_0_1_wf⟩

theorem factsR10 : RowFacts 100000 10 (3200000 + 100000) :=
  ⟨bcast_S_S3300000, bcast_S3300000_S3300000x1_0, bcast_S3300000x1_S3300000x10_0_1, bcast_S_S100000, bcast_S_S100000x10,
    gather_S100000_S3300000x1_S3300000_n_0_n_n_0_1_1_wf, gather_S100000x10_S3300000x1_S3300000x10_1_0_n_n_0_1_110_wf,
    scatter_S100000_S3300000x1_S3300000_n_0_0_1_wf, scatter_S100000x10_S3300000x1_S3300000x10_1_0_0_1_wf⟩

theorem catR : Shape.Concatenates [⟨1, ![3200000]⟩, ⟨1, ![100000]⟩] ⟨1, ![3200000 + 100000]⟩ 0 :=
  concatenates_S3200000_S100000_S3300000_d0

/-- The first layer's aggregation is the first way at 16 columns, over the sources `x1[0, :]` and targets `x1[1, :]`. -/
theorem layer1 (x0 : (⟨S100000x512, .f32⟩ : BufTy).Contents (Elt Ideal)) (x1 : (⟨S2x3200000, .i32⟩ : BufTy).Contents (Elt Ideal))
    (x2 : (⟨S512x16, .f32⟩ : BufTy).Contents (Elt Ideal)) :
    val_main_v40 (F := Ideal) x0 x1 x2
      = layerLoops factsR16 catR 100000#32 (val_main_v27 (F := Ideal) x0 x2) (val_main_v2 (F := Ideal) x1) (val_main_v5 (F := Ideal) x1) := rfl

/-- The second layer's aggregation is the first way at 10 columns. -/
theorem layer2 (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x10, .f32⟩ : BufTy).Contents (Elt Ideal)) :
    val_main_v85 (F := Ideal) x0 x1 x2 x3 x4
      = layerLoops factsR10 catR 100000#32 (val_main_v72 (F := Ideal) x0 x1 x2 x3 x4) (val_main_v47 (F := Ideal) x1) (val_main_v50 (F := Ideal) x1) := rfl

end Cert.GcnRef

end
-- ==== Proof.HostStages.lean ====
/- The host arithmetic of the two-layer graph convolution, as pure functions of arrays over the extended reals.

   From the edge list (row 0 the source endpoints, row 1 the destination endpoints, 3200000 edges over 100000 nodes):
   the degree of a node is one plus the number of edges that end at it; `dinv` is its inverse square root; an edge's
   weight `normE` is the product of `dinv` at its two endpoints (an endpoint below zero is read as counted from the
   end); a node's own weight `normSelf` is `dinv` squared.  One propagation step `agg` of a feature matrix `h` adds, at
   every node, the weighted rows of `h` at the sources of the edges ending there, the node's own row times its own
   weight, and a bias row.  The first layer is `T1`: the step on the first matrix product, then the maximum with zero;
   the second is `T2`: the step on the second matrix product.  Each stretch of host operations of the program computes
   exactly one of these from the buffer contents it starts from, whatever those contents are. -/
import proofs.«171064_j52295521796842_2_alg».proof.Proof.Gen.KernelIdeal.Launch
import Idealize.ShloMosaic.PureOps.Ideal
import Idealize.ShloMosaic.Lib.StableHlo.Run

set_option maxRecDepth 16384

noncomputable section

namespace Cert.KernelIdeal.GcnRun

open Idealize.ShloMosaic Idealize.ShloMosaic.TcCoe Idealize.SL.Sem
open Cert.KernelIdeal.Gen

/-- An array of shape `S` and element type `e` over the extended reals. -/
abbrev Arr (S : Shape) (e : EltTy) : Type := (⟨S, e⟩ : BufTy).Contents (Elt Ideal)

/-! ## The edge list's two rows -/

/-- The source endpoints: row 0 of the edge list. -/
def src (x1 : Arr S2x3200000 .i32) : Arr S3200000 .i32 :=
  shapeCast S3200000 (extractStridedSlice S1x3200000 ![0, 0] x1 slices_S2x3200000_S1x3200000_0_0) shapeCasts_S1x3200000_S3200000

/-- The destination endpoints: row 1 of the edge list. -/
def dst (x1 : Arr S2x3200000 .i32) : Arr S3200000 .i32 :=
  shapeCast S3200000 (extractStridedSlice S1x3200000 ![1, 0] x1 slices_S2x3200000_S1x3200000_1_0) shapeCasts_S1x3200000_S3200000

/-- Node indices as a column, an index below zero counted from the end (the index plus the number of nodes). -/
def wrapIdx (i : Arr S3200000 .i32) : Arr S3200000x1 .i32 :=
  (broadcastInDim S3200000x1 ![0] bcast_S3200000_S3200000x1_0 : Arr S3200000 .i32 → Arr S3200000x1 .i32)
    ((select : Arr S3200000 .i1 → Arr S3200000 .i32 → Arr S3200000 .i32 → Arr S3200000 .i32)
      ((cmpi .slt : Arr S3200000 .i32 → Arr S3200000 .i32 → Arr S3200000 .i1) i
        ((broadcastInDim S3200000 ![] bcast_S_S3200000 : Arr S_ .i32 → Arr S3200000 .i32) (constantI S_ 32 0#32)))
      ((addi : Arr S3200000 .i32 → Arr S3200000 .i32 → Arr S3200000 .i32) i
        ((broadcastInDim S3200000 ![] bcast_S_S3200000 : Arr S_ .i32 → Arr S3200000 .i32) (constantI S_ 32 100000#32)))
      i)

/-- Node indices as a column, as they are. -/
def colIdx (i : Arr S3200000 .i32) : Arr S3200000x1 .i32 :=
  (broadcastInDim S3200000x1 ![0] bcast_S3200000_S3200000x1_0 : Arr S3200000 .i32 → Arr S3200000x1 .i32) i

/-! ## The normalisation -/

/-- The inverse square root of each node's degree: one plus the number of edges ending at the node. -/
def dinv (x1 : Arr S2x3200000 .i32) : Arr S100000 .f32 :=
  (Host.rsqrt (F := Ideal) (φ := .f32) : Arr S100000 .f32 → Arr S100000 .f32)
    ((addf (F := Ideal) (φ := .f32) : Arr S100000 .f32 → Arr S100000 .f32 → Arr S100000 .f32)
      ((fun x i u => Host.scatterAdd (F := Ideal) (φ := .f32) scatter_S100000_S3200000x1_S3200000_n_0_0_1 x i u :
          Arr S100000 .f32 → Arr S3200000x1 .i32 → Arr S3200000 .f32 → Arr S100000 .f32)
        ((broadcastInDim S100000 ![] bcast_S_S100000 : Arr S_ .f32 → Arr S100000 .f32) (constant (F := Ideal) S_ .f32 0x00000000#32))
        (colIdx (dst x1))
        ((broadcastInDim S3200000 ![] bcast_S_S3200000 : Arr S_ .f32 → Arr S3200000 .f32) (constant (F := Ideal) S_ .f32 0x3F800000#32)))
      ((broadcastInDim S100000 ![] bcast_S_S100000 : Arr S_ .f32 → Arr S100000 .f32) (constant (F := Ideal) S_ .f32 0x3F800000#32)))

/-- An edge's weight: the product of `dinv` at its source and at its destination. -/
def normE (x1 : Arr S2x3200000 .i32) : Arr S3200000 .f32 :=
  (mulf (F := Ideal) (φ := .f32) : Arr S3200000 .f32 → Arr S3200000 .f32 → Arr S3200000 .f32)
    ((fun x i => Host.gather gather_S100000_S3200000x1_S3200000_n_0_n_n_0_1_1 x i : Arr S100000 .f32 → Arr S3200000x1 .i32 → Arr S3200000 .f32)
      (dinv x1) (wrapIdx (src x1)))
    ((fun x i => Host.gather gather_S100000_S3200000x1_S3200000_n_0_n_n_0_1_1 x i : Arr S100000 .f32 → Arr S3200000x1 .i32 → Arr S3200000 .f32)
      (dinv x1) (wrapIdx (dst x1)))

/-- A node's own weight: `dinv` squared. -/
def normSelf (x1 : Arr S2x3200000 .i32) : Arr S100000 .f32 :=
  (mulf (F := Ideal) (φ := .f32) : Arr S100000 .f32 → Arr S100000 .f32 → Arr S100000 .f32) (dinv x1) (dinv x1)

/-! ## One propagation step, at each of the two widths -/

/-- The step at width 16: the weighted sum over incoming edges, plus the node's own weighted row, plus the bias. -/
def agg1 (h : Arr S100000x16 .f32) (s d : Arr S3200000 .i32) (ne : Arr S3200000 .f32) (ns : Arr S100000 .f32)
    (b : Arr S16 .f32) : Arr S100000x16 .f32 :=
  (addf (F := Ideal) (φ := .f32) : Arr S100000x16 .f32 → Arr S100000x16 .f32 → Arr S100000x16 .f32)
    ((addf (F := Ideal) (φ := .f32) : Arr S100000x16 .f32 → Arr S100000x16 .f32 → Arr S100000x16 .f32)
      ((fun x i u => Host.scatterAdd (F := Ideal) (φ := .f32) scatter_S100000x16_S3200000x1_S3200000x16_1_0_0_1 x i u :
          Arr S100000x16 .f32 → Arr S3200000x1 .i32 → Arr S3200000x16 .f32 → Arr S100000x16 .f32)
        ((broadcastInDim S100000x16 ![] bcast_S_S100000x16 : Arr S_ .f32 → Arr S100000x16 .f32) (constant (F := Ideal) S_ .f32 0x00000000#32))
        (colIdx d)
        ((mulf (F := Ideal) (φ := .f32) : Arr S3200000x16 .f32 → Arr S3200000x16 .f32 → Arr S3200000x16 .f32)
          ((fun x i => Host.gather gather_S100000x16_S3200000x1_S3200000x16_1_0_n_n_0_1_116 x i :
              Arr S100000x16 .f32 → Arr S3200000x1 .i32 → Arr S3200000x16 .f32) h (wrapIdx s))
          ((broadcastInDim S3200000x16 ![0, 1] bcast_S3200000x1_S3200000x16_0_1 : Arr S3200000x1 .f32 → Arr S3200000x16 .f32)
            ((broadcastInDim S3200000x1 ![0] bcast_S3200000_S3200000x1_0 : Arr S3200000 .f32 → Arr S3200000x1 .f32) ne))))
      ((mulf (F := Ideal) (φ := .f32) : Arr S100000x16 .f32 → Arr S100000x16 .f32 → Arr S100000x16 .f32)
        ((broadcastInDim S100000x16 ![0, 1] bcast_S100000x1_S100000x16_0_1 : Arr S100000x1 .f32 → Arr S100000x16 .f32)
          ((broadcastInDim S100000x1 ![0] bcast_S100000_S100000x1_0 : Arr S100000 .f32 → Arr S100000x1 .f32) ns))
        h))
    ((broadcastInDim S100000x16 ![0, 1] bcast_S1x16_S100000x16_0_1 : Arr S1x16 .f32 → Arr S100000x16 .f32)
      ((broadcastInDim S1x16 ![1] bcast_S16_S1x16_1 : Arr S16 .f32 → Arr S1x16 .f32) b))

/-- The maximum with zero, entry by entry. -/
def relu1 (z : Arr S100000x16 .f32) : Arr S100000x16 .f32 :=
  maximumf (F := Ideal) (φ := .f32) z (broadcastInDim S100000x16 ![] bcast_S_S100000x16 (constant (F := Ideal) S_ .f32 0x00000000#32))

/-- The step at width 10. -/
def agg2 (h : Arr S100000x10 .f32) (s d : Arr S3200000 .i32) (ne : Arr S3200000 .f32) (ns : Arr S100000 .f32)
    (b : Arr S10 .f32) : Arr S100000x10 .f32 :=
  (addf (F := Ideal) (φ := .f32) : Arr S100000x10 .f32 → Arr S100000x10 .f32 → Arr S100000x10 .f32)
    ((addf (F := Ideal) (φ := .f32) : Arr S100000x10 .f32 → Arr S100000x10 .f32 → Arr S100000x10 .f32)
      ((fun x i u => Host.scatterAdd (F := Ideal) (φ := .f32) scatter_S100000x10_S3200000x1_S3200000x10_1_0_0_1 x i u :
          Arr S100000x10 .f32 → Arr S3200000x1 .i32 → Arr S3200000x10 .f32 → Arr S100000x10 .f32)
        ((broadcastInDim S100000x10 ![] bcast_S_S100000x10 : Arr S_ .f32 → Arr S100000x10 .f32) (constant (F := Ideal) S_ .f32 0x00000000#32))
        (colIdx d)
        ((mulf (F := Ideal) (φ := .f32) : Arr S3200000x10 .f32 → Arr S3200000x10 .f32 → Arr S3200000x10 .f32)
          ((fun x i => Host.gather gather_S100000x10_S3200000x1_S3200000x10_1_0_n_n_0_1_110 x i :
              Arr S100000x10 .f32 → Arr S3200000x1 .i32 → Arr S3200000x10 .f32) h (wrapIdx s))
          ((broadcastInDim S3200000x10 ![0, 1] bcast_S3200000x1_S3200000x10_0_1 : Arr S3200000x1 .f32 → Arr S3200000x10 .f32)
            ((broadcastInDim S3200000x1 ![0] bcast_S3200000_S3200000x1_0 : Arr S3200000 .f32 → Arr S3200000x1 .f32) ne))))
      ((mulf (F := Ideal) (φ := .f32) : Arr S100000x10 .f32 → Arr S100000x10 .f32 → Arr S100000x10 .f32)
        ((broadcastInDim S100000x10 ![0, 1] bcast_S100000x1_S100000x10_0_1 : Arr S100000x1 .f32 → Arr S100000x10 .f32)
          ((broadcastInDim S100000x1 ![0] bcast_S100000_S100000x1_0 : Arr S100000 .f32 → Arr S100000x1 .f32) ns))
        h))
    ((broadcastInDim S100000x10 ![0, 1] bcast_S1x10_S100000x10_0_1 : Arr S1x10 .f32 → Arr S100000x10 .f32)
      ((broadcastInDim S1x10 ![1] bcast_S10_S1x10_1 : Arr S10 .f32 → Arr S1x10 .f32) b))

/-! ## The two layers as functions of a matrix product, the edge list and a bias -/

/-- The first layer after its matrix product `h`: the step with the first bias, then the maximum with zero. -/
def T1 (h : Arr S100000x16 .f32) (x1 : Arr S2x3200000 .i32) (b1 : Arr S16 .f32) : Arr S100000x16 .f32 :=
  relu1 (agg1 h (src x1) (dst x1) (normE x1) (normSelf x1) b1)

/-- The second layer after its matrix product `h2`: the step with the second bias. -/
def T2 (h2 : Arr S100000x10 .f32) (x1 : Arr S2x3200000 .i32) (b2 : Arr S10 .f32) : Arr S100000x10 .f32 :=
  agg2 h2 (src x1) (dst x1) (normE x1) (normSelf x1) b2

/-! ## What each stretch of host operations leaves, from any contents `X` -/

variable (X : Valuation τ sig (Elt Ideal))

/-- The first stretch leaves the source endpoints, -/
theorem after0_src : StableHlo.after (hostOps0 (F := Ideal)) X (Proc.devRef .tc main_v1) = src (X (Proc.devRef .tc main_arg1)) := by
  after_results; rfl

/-- the destination endpoints, -/
theorem after0_dst : StableHlo.after (hostOps0 (F := Ideal)) X (Proc.devRef .tc main_v3) = dst (X (Proc.devRef .tc main_arg1)) := by
  after_results; rfl

/-- the edges' weights -/
theorem after0_normE : StableHlo.after (hostOps0 (F := Ideal)) X (Proc.devRef .tc main_v25) = normE (X (Proc.devRef .tc main_arg1)) := by
  after_results_simp; rfl

/-- and the nodes' own weights, all from the edge list. -/
theorem after0_normSelf : StableHlo.after (hostOps0 (F := Ideal)) X (Proc.devRef .tc main_v26) = normSelf (X (Proc.devRef .tc main_arg1)) := by
  after_results_simp; rfl

/-- The stretch after the first matrix product leaves the step at width 16 of that product. -/
theorem after1_agg : StableHlo.after (hostOps1 (F := Ideal)) X (Proc.devRef .tc main_v47)
    = agg1 (X (Proc.devRef .tc main_v27)) (X (Proc.devRef .tc main_v1)) (X (Proc.devRef .tc main_v3))
        (X (Proc.devRef .tc main_v25)) (X (Proc.devRef .tc main_v26)) (X (Proc.devRef .tc main_arg3)) := by
  after_results_simp; rfl

/-- The next stretch leaves its maximum with zero. -/
theorem after1_1_relu : StableHlo.after (hostOps1_1 (F := Ideal)) X (Proc.devRef .tc main_v48) = relu1 (X (Proc.devRef .tc main_v47)) := by
  after_results; rfl

/-- The last stretch leaves the step at width 10 of the second matrix product. -/
theorem after2_agg : StableHlo.after (hostOps2 (F := Ideal)) X (Proc.devRef .tc main_v69)
    = agg2 (X (Proc.devRef .tc main_v49)) (X (Proc.devRef .tc main_v1)) (X (Proc.devRef .tc main_v3))
        (X (Proc.devRef .tc main_v25)) (X (Proc.devRef .tc main_v26)) (X (Proc.devRef .tc main_arg5)) := by
  after_results_simp; rfl

end Cert.KernelIdeal.GcnRun

end
-- ==== Proof.KernelRun.lean ====
/- The run of the two-layer graph convolution with its result named.

   Every weakly fair execution of the program from a memory with zero counters terminates without a fault; in the
   final state the result buffer (the second layer's output plus its bias) holds the contents the last stretch of
   host operations leaves in it, and the six argument arrays (features, edge list, the two weight matrices and the
   two biases) hold what they held at the launch.  The contents of the result buffer are named as the last
   boundary's contents of the fold of buffer contents through the program: the launch memory, then alternately what a
   stretch of host operations computes from the contents before it and what a matrix-product region's write-backs
   leave in its output array. -/
import proofs.«171064_j52295521796842_2_alg».proof.Proof.Gen.KernelIdeal.Frame
import Idealize.ShloMosaic.PureOps.Ideal

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run with the result named: the result buffer ends at the last boundary's contents, the arguments as launched. -/
theorem run_named : θ_run defs (onTc (τ := τ) (main (F := Ideal))) ⟨m, fun _ => 0, ρ⟩ (fun r => ∀ c : Dev nD,
      r.2.mem ((c.tc : Thread nD τ).loc main_v69) = W6 (F := Ideal) m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v69 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.GcnRun

end
-- ==== Proof.KernelRead.lean ====
/- The result of the two-layer graph convolution read back to a pure function of the arguments.

   The program's buffer contents are followed from the launch memory through its six segments.  A buffer that a
   stretch of host operations does not write, and that is none of a region's three arrays, is carried unchanged, so
   the edge list's two rows, the edges' weights and the nodes' own weights computed by the first stretch reach the two
   later stretches as computed, and the weight matrices and biases reach their readers as launched.  Hence the second
   region is entered with the first layer `T1` of the first region's output array as its left factor, and the result
   buffer ends at the second layer `T2` of the second region's output array. -/
import proofs.«171064_j52295521796842_2_alg».proof.Proof.Gen.KernelIdeal.Frame
import proofs.«171064_j52295521796842_2_alg».proof.Proof.HostStages
import proofs.«171064_j52295521796842_2_alg».proof.Proof.KernelRun

set_option maxRecDepth 16384

noncomputable section

namespace Cert.KernelIdeal.GcnRun

open Idealize.ShloMosaic Idealize.ShloMosaic.TcCoe Idealize.ShloMosaic.Tactic
open Idealize.SL Idealize.SL.Sem
open Idealize.ShloMosaic.Pipeline (Dat Cfg Window)
open Cert.KernelIdeal.Gen

/-! ## Buffers a stretch of host operations does not write -/

/-- No operation of the named stretch writes the buffer in the goal: every operation's result buffer is another one. -/
local macro "keeps " h:ident : tactic => `(tactic| (
  refine StableHlo.after_of_forall_not_mem _ _ (List.forall_iff_forall_mem.mp ?_)
  simp only [$h:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Keeps
variable (X : Valuation τ sig (Elt Ideal))

theorem hostOps0_keeps_arg0 : StableHlo.after (hostOps0 (F := Ideal)) X (Proc.devRef .tc main_arg0) = X (Proc.devRef .tc main_arg0) := by keeps hostOps0
theorem hostOps0_keeps_arg2 : StableHlo.after (hostOps0 (F := Ideal)) X (Proc.devRef .tc main_arg2) = X (Proc.devRef .tc main_arg2) := by keeps hostOps0
theorem hostOps0_keeps_arg3 : StableHlo.after (hostOps0 (F := Ideal)) X (Proc.devRef .tc main_arg3) = X (Proc.devRef .tc main_arg3) := by keeps hostOps0
theorem hostOps0_keeps_arg4 : StableHlo.after (hostOps0 (F := Ideal)) X (Proc.devRef .tc main_arg4) = X (Proc.devRef .tc main_arg4) := by keeps hostOps0
theorem hostOps0_keeps_arg5 : StableHlo.after (hostOps0 (F := Ideal)) X (Proc.devRef .tc main_arg5) = X (Proc.devRef .tc main_arg5) := by keeps hostOps0
theorem hostOps1_keeps_v1 : StableHlo.after (hostOps1 (F := Ideal)) X (Proc.devRef .tc main_v1) = X (Proc.devRef .tc main_v1) := by keeps hostOps1
theorem hostOps1_keeps_v3 : StableHlo.after (hostOps1 (F := Ideal)) X (Proc.devRef .tc main_v3) = X (Proc.devRef .tc main_v3) := by keeps hostOps1
theorem hostOps1_keeps_v25 : StableHlo.after (hostOps1 (F := Ideal)) X (Proc.devRef .tc main_v25) = X (Proc.devRef .tc main_v25) := by keeps hostOps1
theorem hostOps1_keeps_v26 : StableHlo.after (hostOps1 (F := Ideal)) X (Proc.devRef .tc main_v26) = X (Proc.devRef .tc main_v26) := by keeps hostOps1
theorem hostOps1_keeps_arg4 : StableHlo.after (hostOps1 (F := Ideal)) X (Proc.devRef .tc main_arg4) = X (Proc.devRef .tc main_arg4) := by keeps hostOps1
theorem hostOps1_keeps_arg5 : StableHlo.after (hostOps1 (F := Ideal)) X (Proc.devRef .tc main_arg5) = X (Proc.devRef .tc main_arg5) := by keeps hostOps1
theorem hostOps1_1_keeps_v1 : StableHlo.after (hostOps1_1 (F := Ideal)) X (Proc.devRef .tc main_v1) = X (Proc.devRef .tc main_v1) := by keeps hostOps1_1
theorem hostOps1_1_keeps_v3 : StableHlo.after (hostOps1_1 (F := Ideal)) X (Proc.devRef .tc main_v3) = X (Proc.devRef .tc main_v3) := by keeps hostOps1_1
theorem hostOps1_1_keeps_v25 : StableHlo.after (hostOps1_1 (F := Ideal)) X (Proc.devRef .tc main_v25) = X (Proc.devRef .tc main_v25) := by keeps hostOps1_1
theorem hostOps1_1_keeps_v26 : StableHlo.after (hostOps1_1 (F := Ideal)) X (Proc.devRef .tc main_v26) = X (Proc.devRef .tc main_v26) := by keeps hostOps1_1
theorem hostOps1_1_keeps_arg4 : StableHlo.after (hostOps1_1 (F := Ideal)) X (Proc.devRef .tc main_arg4) = X (Proc.devRef .tc main_arg4) := by keeps hostOps1_1
theorem hostOps1_1_keeps_arg5 : StableHlo.after (hostOps1_1 (F := Ideal)) X (Proc.devRef .tc main_arg5) = X (Proc.devRef .tc main_arg5) := by keeps hostOps1_1

end Keeps

variable (m : (ℓ : Loc nD τ sig) → Buf (Elt Ideal) ℓ) (ρ : Dev nD → PrngReg) (c : Dev nD)

/-! ## The first stretch's values, carried to their readers -/

theorem W1_src : W1 m ρ c (Proc.devRef .tc main_v1) = src (m ((c.tc : Thread nD τ).loc main_arg1)) := after0_src (W0 m ρ c)
theorem W1_dst : W1 m ρ c (Proc.devRef .tc main_v3) = dst (m ((c.tc : Thread nD τ).loc main_arg1)) := after0_dst (W0 m ρ c)
theorem W1_normE : W1 m ρ c (Proc.devRef .tc main_v25) = normE (m ((c.tc : Thread nD τ).loc main_arg1)) := after0_normE (W0 m ρ c)
theorem W1_normSelf : W1 m ρ c (Proc.devRef .tc main_v26) = normSelf (m ((c.tc : Thread nD τ).loc main_arg1)) := after0_normSelf (W0 m ρ c)

theorem W2_src : W2 m ρ c (Proc.devRef .tc main_v1) = src (m ((c.tc : Thread nD τ).loc main_arg1)) :=
  (W2_of_ne m ρ c main_v1 (by decide)).trans (W1_src m ρ c)
theorem W2_dst : W2 m ρ c (Proc.devRef .tc main_v3) = dst (m ((c.tc : Thread nD τ).loc main_arg1)) :=
  (W2_of_ne m ρ c main_v3 (by decide)).trans (W1_dst m ρ c)
theorem W2_normE : W2 m ρ c (Proc.devRef .tc main_v25) = normE (m ((c.tc : Thread nD τ).loc main_arg1)) :=
  (W2_of_ne m ρ c main_v25 (by decide)).trans (W1_normE m ρ c)
theorem W2_normSelf : W2 m ρ c (Proc.devRef .tc main_v26) = normSelf (m ((c.tc : Thread nD τ).loc main_arg1)) :=
  (W2_of_ne m ρ c main_v26 (by decide)).trans (W1_normSelf m ρ c)

theorem W5_src : W5 m ρ c (Proc.devRef .tc main_v1) = src (m ((c.tc : Thread nD τ).loc main_arg1)) :=
  (W5_of_ne m ρ c main_v1 (by decide)).trans <| (hostOps1_1_keeps_v1 (W3 m ρ c)).trans <|
    (hostOps1_keeps_v1 (W2 m ρ c)).trans (W2_src m ρ c)
theorem W5_dst : W5 m ρ c (Proc.devRef .tc main_v3) = dst (m ((c.tc : Thread nD τ).loc main_arg1)) :=
  (W5_of_ne m ρ c main_v3 (by decide)).trans <| (hostOps1_1_keeps_v3 (W3 m ρ c)).trans <|
    (hostOps1_keeps_v3 (W2 m ρ c)).trans (W2_dst m ρ c)
theorem W5_normE : W5 m ρ c (Proc.devRef .tc main_v25) = normE (m ((c.tc : Thread nD τ).loc main_arg1)) :=
  (W5_of_ne m ρ c main_v25 (by decide)).trans <| (hostOps1_1_keeps_v25 (W3 m ρ c)).trans <|
    (hostOps1_keeps_v25 (W2 m ρ c)).trans (W2_normE m ρ c)
theorem W5_normSelf : W5 m ρ c (Proc.devRef .tc main_v26) = normSelf (m ((c.tc : Thread nD τ).loc main_arg1)) :=
  (W5_of_ne m ρ c main_v26 (by decide)).trans <| (hostOps1_1_keeps_v26 (W3 m ρ c)).trans <|
    (hostOps1_keeps_v26 (W2 m ρ c)).trans (W2_normSelf m ρ c)

/-! ## The arguments, carried to their readers -/

/-- The first region is entered with the features as its left factor -/
theorem entry0_0 : V1 (F := Ideal) m ρ c (Pipeline.arrRef spec0 0) = m ((c.tc : Thread nD τ).loc main_arg0) :=
  hostOps0_keeps_arg0 (W0 m ρ c)

/-- and the first weight matrix as its right factor. -/
theorem entry0_1 : V1 (F := Ideal) m ρ c (Pipeline.arrRef spec0 1) = m ((c.tc : Thread nD τ).loc main_arg2) :=
  hostOps0_keeps_arg2 (W0 m ρ c)

theorem W2_arg3 : W2 (F := Ideal) m ρ c (Proc.devRef .tc main_arg3) = m ((c.tc : Thread nD τ).loc main_arg3) :=
  (W2_of_ne m ρ c main_arg3 (by decide)).trans (hostOps0_keeps_arg3 (W0 m ρ c))

theorem W2_arg4 : W2 (F := Ideal) m ρ c (Proc.devRef .tc main_arg4) = m ((c.tc : Thread nD τ).loc main_arg4) :=
  (W2_of_ne m ρ c main_arg4 (by decide)).trans (hostOps0_keeps_arg4 (W0 m ρ c))

theorem W2_arg5 : W2 (F := Ideal) m ρ c (Proc.devRef .tc main_arg5) = m ((c.tc : Thread nD τ).loc main_arg5) :=
  (W2_of_ne m ρ c main_arg5 (by decide)).trans (hostOps0_keeps_arg5 (W0 m ρ c))

theorem W5_arg5 : W5 (F := Ideal) m ρ c (Proc.devRef .tc main_arg5) = m ((c.tc : Thread nD τ).loc main_arg5) :=
  (W5_of_ne m ρ c main_arg5 (by decide)).trans <| (hostOps1_1_keeps_arg5 (W3 m ρ c)).trans <|
    (hostOps1_keeps_arg5 (W2 m ρ c)).trans (W2_arg5 m ρ c)

/-- The second region is entered with the second weight matrix as its right factor -/
theorem entry1_1 : V4 (F := Ideal) m ρ c (Pipeline.arrRef spec1 1) = m ((c.tc : Thread nD τ).loc main_arg4) :=
  (hostOps1_1_keeps_arg4 (W3 m ρ c)).trans <| (hostOps1_keeps_arg4 (W2 m ρ c)).trans (W2_arg4 m ρ c)

/-! ## The two layers -/

/-- The first region leaves its output array in the buffer the next stretch reads, -/
theorem W2_v27 : W2 (F := Ideal) m ρ c (Proc.devRef .tc main_v27) = (dat0 (V1 m ρ) c).arrAt 2 cfg0.N := W2_arr m ρ c 2

/-- and the second region likewise. -/
theorem W5_v49 : W5 (F := Ideal) m ρ c (Proc.devRef .tc main_v49) = (dat1 (V4 m ρ) c).arrAt 2 cfg1.N := W5_arr m ρ c 2

/-- and, as its left factor, the first layer of the first region's output array. -/
theorem entry1_0 : V4 (F := Ideal) m ρ c (Pipeline.arrRef spec1 0)
    = T1 ((dat0 (V1 m ρ) c).arrAt 2 cfg0.N) (m ((c.tc : Thread nD τ).loc main_arg1)) (m ((c.tc : Thread nD τ).loc main_arg3)) := by
  refine (after1_1_relu (W3 m ρ c)).trans ?_
  unfold T1
  refine congrArg relu1 ?_
  refine (after1_agg (W2 m ρ c)).trans ?_
  rw [W2_v27, W2_src, W2_dst, W2_normE, W2_normSelf, W2_arg3]

/-- The result buffer ends at the second layer of the second region's output array. -/
theorem W6_result : W6 (F := Ideal) m ρ c (Proc.devRef .tc main_v69)
    = T2 ((dat1 (V4 m ρ) c).arrAt 2 cfg1.N) (m ((c.tc : Thread nD τ).loc main_arg1)) (m ((c.tc : Thread nD τ).loc main_arg5)) := by
  refine (after2_agg (W5 m ρ c)).trans ?_
  unfold T2
  rw [W5_v49, W5_src, W5_dst, W5_normE, W5_normSelf, W5_arg5]

/-! ## The run -/

/-- The run with the result as the second layer of the second region's output array, the arguments as launched. -/
theorem run_read : θ_run defs (onTc (τ := τ) (main (F := Ideal))) ⟨m, fun _ => 0, ρ⟩ (fun r => ∀ c : Dev nD,
      r.2.mem ((c.tc : Thread nD τ).loc main_v69)
        = T2 ((dat1 (V4 m ρ) c).arrAt 2 cfg1.N) (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W6_result m ρ c), (h c).2⟩) (run_named m ρ)

/-- The same with each region's output array given as a function of its two entry arrays: if, whatever the contents a
    region is entered with, its output array ends at `MM` of its left and right factors, then the result is the second
    layer of the second product of the first layer of the first product. -/
theorem run_value
    (MM0 : Arr S100000x512 .f32 → Arr S512x16 .f32 → Arr S100000x16 .f32)
    (MM1 : Arr S100000x16 .f32 → Arr S16x10 .f32 → Arr S100000x10 .f32)
    (h0 : ∀ (V : (c : Dev nD) → (b : Ref sig .tc) → Buf (Elt Ideal) ((c : Thread nD τ).loc b)) (c : Dev nD),
      (dat0 V c).arrAt 2 cfg0.N = MM0 (V c (Pipeline.arrRef spec0 0)) (V c (Pipeline.arrRef spec0 1)))
    (h1 : ∀ (V : (c : Dev nD) → (b : Ref sig .tc) → Buf (Elt Ideal) ((c : Thread nD τ).loc b)) (c : Dev nD),
      (dat1 V c).arrAt 2 cfg1.N = MM1 (V c (Pipeline.arrRef spec1 0)) (V c (Pipeline.arrRef spec1 1))) :
    θ_run defs (onTc (τ := τ) (main (F := Ideal))) ⟨m, fun _ => 0, ρ⟩ (fun r => ∀ c : Dev nD,
      r.2.mem ((c.tc : Thread nD τ).loc main_v69)
        = T2 (MM1 (T1 (MM0 (m ((c.tc : Thread nD τ).loc main_arg0)) (m ((c.tc : Thread nD τ).loc main_arg2))) (m ((c.tc : Thread nD τ).loc main_arg1)) (m ((c.tc : Thread nD τ).loc main_arg3)))
            (m ((c.tc : Thread nD τ).loc main_arg4))) (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (by
      rw [h1 (V4 m ρ) c, entry1_0, entry1_1, h0 (V1 m ρ) c, entry0_0, entry0_1]), (h c).2⟩) (run_read m ρ)

end Cert.KernelIdeal.GcnRun

end
-- ==== Proof.RegionZero.lean ====
/- The first matrix product of the two-layer graph convolution, as a plain sum.

   The region multiplies the [100000,512] feature array by the [512,16] weight in 25 row blocks of
   4000 rows. At the ideal instance a change of float format is the identity and the matrix unit's
   product into a zero accumulator is the textbook sum, so the block written at grid point t, read
   at (p, q), is the sum over k of feature (4000 t + p, k) times weight (k, q). The blocks tile the
   rows (row r lies in block r / 4000), hence after the run the output array holds, at (r, q), the
   sum over k of feature (r, k) times weight (k, q) -- for whatever the two input arrays hold when
   the region is entered. -/
import proofs.«171064_j52295521796842_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionZero

open Cert.KernelIdeal Cert.KernelIdeal.Gen Idealize.ShloMosaic Idealize.ShloMosaic.TcCoe Idealize.SL.Sem
open Idealize.ShloMosaic.Pipeline (Dat)
open Idealize.ShloMosaic.ValueIdx

/-- The product of a [100000,512] array and a [512,16] array, entry by entry. -/
def prod (A : S100000x512.Idx → EReal) (B : S512x16.Idx → EReal) : S100000x16.Idx → EReal :=
  fun i => ∑ k : Fin 512, A (ix2 (i 0 : Fin 100000) k) * B (ix2 k (i 1 : Fin 16))

theorem prod_apply (A : S100000x512.Idx → EReal) (B : S512x16.Idx → EReal) (r : Fin 100000) (q : Fin 16) :
    prod A B (ix2 r q) = ∑ k : Fin 512, A (ix2 r k) * B (ix2 k q) := rfl

/-! ## One block's product at an entry -/

/-- The operand indices of the block product at output entry `j` and contraction index `κ`:
    (row of `j`, κ) on the left, (κ, column of `j`) on the right. -/
theorem lhs_0 (j : S4000x16.Idx) (κ : dot_S4000x512_S512x16_S4000x16_1_0_0_1_n_n.contr.Idx) :
    (dot_S4000x512_S512x16_S4000x16_1_0_0_1_n_n.lhsIdx j κ 0).val = (j 0).val := by
  unfold DotDims.lhsIdx
  rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
  rfl
theorem lhs_1 (j : S4000x16.Idx) (κ : dot_S4000x512_S512x16_S4000x16_1_0_0_1_n_n.contr.Idx) :
    (dot_S4000x512_S512x16_S4000x16_1_0_0_1_n_n.lhsIdx j κ 1).val = (κ ⟨0, by decide⟩).val :=
  dot_S4000x512_S512x16_S4000x16_1_0_0_1_n_n.lhsIdx_val_of_single rfl j κ
theorem rhs_0 (j : S4000x16.Idx) (κ : dot_S4000x512_S512x16_S4000x16_1_0_0_1_n_n.contr.Idx) :
    (dot_S4000x512_S512x16_S4000x16_1_0_0_1_n_n.rhsIdx j κ 0).val = (κ ⟨0, by decide⟩).val :=
  dot_S4000x512_S512x16_S4000x16_1_0_0_1_n_n.rhsIdx_val_of_single rfl j κ
theorem rhs_1 (j : S4000x16.Idx) (κ : dot_S4000x512_S512x16_S4000x16_1_0_0_1_n_n.contr.Idx) :
    (dot_S4000x512_S512x16_S4000x16_1_0_0_1_n_n.rhsIdx j κ 1).val = (j 1).val := by
  unfold DotDims.rhsIdx
  rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
  rfl

/-- The body's stored value at (p, q): the sum over k of the loaded row block at (p, k) times the
    loaded weight at (k, q). -/
theorem pay_apply (x0 : Vec Ideal S4000x512 .f32) (x1 : Vec Ideal S512x16 .f32) (p : Fin 4000) (q : Fin 16) :
    k0_pay1 x0 x1 (ix2 p q) = ∑ k : Fin 512, x0 (ix2 p k) * x1 (ix2 k q) := by
  unfold k0_pay1
  refine (Ideal.matmul_constant_zero_apply dot_S4000x512_S512x16_S4000x16_1_0_0_1_n_n none _ _ (ix2 p q)).trans ?_
  rw [← Equiv.sum_comp (contrEquiv1 dot_S4000x512_S512x16_S4000x16_1_0_0_1_n_n 512 rfl rfl).symm]
  refine Finset.sum_congr rfl fun k _ => ?_
  have hk := contrEquiv1_symm_val dot_S4000x512_S512x16_S4000x16_1_0_0_1_n_n 512 rfl rfl k
  have el : dot_S4000x512_S512x16_S4000x16_1_0_0_1_n_n.lhsIdx (ix2 p q) ((contrEquiv1 dot_S4000x512_S512x16_S4000x16_1_0_0_1_n_n 512 rfl rfl).symm k) = ix2 p k :=
    funext fun a => Fin.ext (by
      match a with
      | ⟨0, _⟩ => exact lhs_0 _ _
      | ⟨1, _⟩ => exact (lhs_1 _ _).trans hk)
  have er : dot_S4000x512_S512x16_S4000x16_1_0_0_1_n_n.rhsIdx (ix2 p q) ((contrEquiv1 dot_S4000x512_S512x16_S4000x16_1_0_0_1_n_n 512 rfl rfl).symm k) = ix2 k q :=
    funext fun a => Fin.ext (by
      match a with
      | ⟨0, _⟩ => exact (rhs_0 _ _).trans hk
      | ⟨1, _⟩ => exact rhs_1 _ _)
  rw [el, er]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the 25 grid points: the feature window and the output window sit at
    block row `t`, block column 0; the weight window is the whole weight at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t`, at (p, k), is the feature array at row 4000 t + p, column k. -/
theorem read_lhs (c : Dev nD) (t : Fin cfg0.N) (p : Fin 4000) (k : Fin 512) (r : Fin 100000)
    (hr : r.val = t.val * 4000 + p.val) :
    iblk0 V c 0 t (ix2 p k) = (V c (Pipeline.arrRef spec0 0) : S100000x512.Idx → EReal) (ix2 r k) := by
  obtain ⟨e0, e1, -⟩ := idx_facts t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 512 + 1 * k.val = k.val; omega

/-- The weight block at every point is the weight array. -/
theorem read_rhs (c : Dev nD) (t : Fin cfg0.N) (k : Fin 512) (q : Fin 16) :
    iblk0 V c 1 t (ix2 k q) = (V c (Pipeline.arrRef spec0 1) : S512x16.Idx → EReal) (ix2 k q) := by
  obtain ⟨-, -, e2, e3, -⟩ := idx_facts t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 512 + 1 * k.val = k.val; omega
  | ⟨1, _⟩ => show win0_1.index t (1 : Fin 2) * 16 + 1 * q.val = q.val; omega

/-- What point `t` writes back is block `t` of the product of the two arrays as the region finds them. -/
theorem flushed_eq (c : Dev nD) (t : Fin cfg0.N) :
    (dat0 V c).flushed 2 t = ((cfg0.win 2).blk t).view.read (Elt Ideal)
      (prod (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x16) hz]
  obtain ⟨-, -, -, -, e4, e5⟩ := idx_facts t
  have ht : t.val < 25 := lt_of_lt_of_eq t.isLt N_0
  funext j
  show k0_pay1 (iblk0 V c 0 t) (iblk0 V c 1 t) j
    = prod (V c (Pipeline.arrRef spec0 0)) (V c (Pipeline.arrRef spec0 1)) (((cfg0.win 2).blk t).view.emb j)
  obtain ⟨p, q, rfl⟩ : ∃ (p : Fin 4000) (q : Fin 16), j = ix2 p q := ⟨j 0, j 1, eq_ix2 j⟩
  have hemb : ((cfg0.win 2).blk t).view.emb (ix2 p q) = ix2 (⟨t.val * 4000 + p.val, by omega⟩ : Fin 100000) q :=
    funext fun a => Fin.ext (by
      match a with
      | ⟨0, _⟩ => show win0_2.index t (0 : Fin 2) * 4000 + 1 * p.val = t.val * 4000 + p.val; omega
      | ⟨1, _⟩ => show win0_2.index t (1 : Fin 2) * 16 + 1 * q.val = q.val; omega)
  refine (pay_apply (iblk0 V c 0 t) (iblk0 V c 1 t) p q).trans ?_
  rw [hemb, prod_apply]
  refine Finset.sum_congr rfl fun k _ => ?_
  rw [read_lhs V c t p k ⟨t.val * 4000 + p.val, by omega⟩ rfl, read_rhs V c t k q]

/-- An entry of the output array is in point `t`'s block iff each coordinate is in the block's range. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v27).slice (win0_2.rect t)).set ↔ _
  rw [View.set_slice_whole, Rect.mem_set_unit]
  exact Iff.rfl

/-- Row r of the output lies in the block of point r / 4000: the 25 blocks cover the array. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 25 := N_0
  obtain ⟨t, htv⟩ : ∃ t : Fin cfg0.N, t.val = (i 0).val / 4000 := ⟨⟨(i 0).val / 4000, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- THE OUTPUT ARRAY after the region's run is the product of the feature array and the weight array
    as the region finds them. -/
theorem out_eq_prod (c : Dev nD) :
    (dat0 V c).arrAt 2 cfg0.N = prod (V c (Pipeline.arrRef spec0 0)) (V c (Pipeline.arrRef spec0 1)) :=
  (dat0 V c).arrAt_eq_of_cover 2 _ (fun t _ => flushed_eq V c t) cover

/-- The feature array and the weight array as the region finds them, as functions of a literal index. -/
abbrev lhsArr (c : Dev nD) : S100000x512.Idx → EReal := V c (Pipeline.arrRef spec0 0)
abbrev rhsArr (c : Dev nD) : S512x16.Idx → EReal := V c (Pipeline.arrRef spec0 1)

/-- The same with the sum written out. -/
theorem out_eq_sum (c : Dev nD) :
    (dat0 V c).arrAt 2 cfg0.N = (fun i => ∑ k : Fin 512,
      lhsArr V c (ix2 (i 0 : Fin 100000) k) * rhsArr V c (ix2 k (i 1 : Fin 16)) : S100000x16.Idx → EReal) :=
  out_eq_prod V c

end Cert.KernelIdeal.RegionZero

end
-- ==== Proof.RegionOne.lean ====
/- The second matrix product of the two-layer graph convolution, as a plain sum.

   The region multiplies the [100000,16] hidden array by the [16,10] weight in 10 row blocks of
   10000 rows. At the ideal instance a change of float format is the identity, a shape cast to the
   same shape is the identity, and the matrix unit's product into a zero accumulator is the
   textbook sum, so the block written at grid point t, read at (p, q), is the sum over k of
   hidden (10000 t + p, k) times weight (k, q). The blocks tile the rows (row r lies in block
   r / 10000), hence after the run the output array holds, at (r, q), the sum over k of
   hidden (r, k) times weight (k, q) -- for whatever the two input arrays hold when the region is
   entered. -/
import proofs.«171064_j52295521796842_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionOne

open Cert.KernelIdeal Cert.KernelIdeal.Gen Idealize.ShloMosaic Idealize.ShloMosaic.TcCoe Idealize.SL.Sem
open Idealize.ShloMosaic.Pipeline (Dat)
open Idealize.ShloMosaic.ValueIdx

/-- The product of a [100000,16] array and a [16,10] array, entry by entry. -/
def prod (A : S100000x16.Idx → EReal) (B : S16x10.Idx → EReal) : S100000x10.Idx → EReal :=
  fun i => ∑ k : Fin 16, A (ix2 (i 0 : Fin 100000) k) * B (ix2 k (i 1 : Fin 10))

theorem prod_apply (A : S100000x16.Idx → EReal) (B : S16x10.Idx → EReal) (r : Fin 100000) (q : Fin 10) :
    prod A B (ix2 r q) = ∑ k : Fin 16, A (ix2 r k) * B (ix2 k q) := rfl

/-! ## One block's product at an entry -/

/-- The operand indices of the block product at output entry `j` and contraction index `κ`:
    (row of `j`, κ) on the left, (κ, column of `j`) on the right. -/
theorem lhs_0 (j : S10000x10.Idx) (κ : dot_S10000x16_S16x10_S10000x10_1_0_0_1_n_n.contr.Idx) :
    (dot_S10000x16_S16x10_S10000x10_1_0_0_1_n_n.lhsIdx j κ 0).val = (j 0).val := by
  unfold DotDims.lhsIdx
  rw [dif_neg (show ¬(0 : Fin S10000x16.rank) ∈ dot_S10000x16_S16x10_S10000x10_1_0_0_1_n_n.lhsBatch by decide), dif_pos (show (0 : Fin S10000x16.rank) ∈ dot_S10000x16_S16x10_S10000x10_1_0_0_1_n_n.lhsNonContracting by decide)]
  rfl
theorem lhs_1 (j : S10000x10.Idx) (κ : dot_S10000x16_S16x10_S10000x10_1_0_0_1_n_n.contr.Idx) :
    (dot_S10000x16_S16x10_S10000x10_1_0_0_1_n_n.lhsIdx j κ 1).val = (κ ⟨0, by decide⟩).val :=
  dot_S10000x16_S16x10_S10000x10_1_0_0_1_n_n.lhsIdx_val_of_single rfl j κ
theorem rhs_0 (j : S10000x10.Idx) (κ : dot_S10000x16_S16x10_S10000x10_1_0_0_1_n_n.contr.Idx) :
    (dot_S10000x16_S16x10_S10000x10_1_0_0_1_n_n.rhsIdx j κ 0).val = (κ ⟨0, by decide⟩).val :=
  dot_S10000x16_S16x10_S10000x10_1_0_0_1_n_n.rhsIdx_val_of_single rfl j κ
theorem rhs_1 (j : S10000x10.Idx) (κ : dot_S10000x16_S16x10_S10000x10_1_0_0_1_n_n.contr.Idx) :
    (dot_S10000x16_S16x10_S10000x10_1_0_0_1_n_n.rhsIdx j κ 1).val = (j 1).val := by
  unfold DotDims.rhsIdx
  rw [dif_neg (show ¬(1 : Fin S16x10.rank) ∈ dot_S10000x16_S16x10_S10000x10_1_0_0_1_n_n.rhsBatch by decide), dif_pos (show (1 : Fin S16x10.rank) ∈ dot_S10000x16_S16x10_S10000x10_1_0_0_1_n_n.rhsNonContracting by decide)]
  rfl

/-- The body's stored value at (p, q): the sum over k of the loaded row block at (p, k) times the
    loaded weight at (k, q). -/
theorem pay_apply (x0 : Vec Ideal S10000x16 .f32) (x1 : Vec Ideal S16x10 .f32) (p : Fin 10000) (q : Fin 10) :
    k1_pay1 x0 x1 (ix2 p q) = ∑ k : Fin 16, x0 (ix2 p k) * x1 (ix2 k q) := by
  unfold k1_pay1
  rw [shapeCast_self]
  refine (Ideal.matmul_constant_zero_apply dot_S10000x16_S16x10_S10000x10_1_0_0_1_n_n none _ _ (ix2 p q)).trans ?_
  rw [← Equiv.sum_comp (contrEquiv1 dot_S10000x16_S16x10_S10000x10_1_0_0_1_n_n 16 rfl rfl).symm]
  refine Finset.sum_congr rfl fun k _ => ?_
  have hk := contrEquiv1_symm_val dot_S10000x16_S16x10_S10000x10_1_0_0_1_n_n 16 rfl rfl k
  have el : dot_S10000x16_S16x10_S10000x10_1_0_0_1_n_n.lhsIdx (ix2 p q) ((contrEquiv1 dot_S10000x16_S16x10_S10000x10_1_0_0_1_n_n 16 rfl rfl).symm k) = ix2 p k :=
    funext fun a => Fin.ext (by
      match a with
      | ⟨0, _⟩ => exact lhs_0 _ _
      | ⟨1, _⟩ => exact (lhs_1 _ _).trans hk)
  have er : dot_S10000x16_S16x10_S10000x10_1_0_0_1_n_n.rhsIdx (ix2 p q) ((contrEquiv1 dot_S10000x16_S16x10_S10000x10_1_0_0_1_n_n 16 rfl rfl).symm k) = ix2 k q :=
    funext fun a => Fin.ext (by
      match a with
      | ⟨0, _⟩ => exact (rhs_0 _ _).trans hk
      | ⟨1, _⟩ => exact rhs_1 _ _)
  rw [el, er]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the 10 grid points: the hidden window and the output window sit at
    block row `t`, block column 0; the weight window is the whole weight at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The hidden block at point `t`, at (p, k), is the hidden array at row 10000 t + p, column k. -/
theorem read_lhs (c : Dev nD) (t : Fin cfg1.N) (p : Fin 10000) (k : Fin 16) (r : Fin 100000)
    (hr : r.val = t.val * 10000 + p.val) :
    iblk1 V c 0 t (ix2 p k) = (V c (Pipeline.arrRef spec1 0) : S100000x16.Idx → EReal) (ix2 r k) := by
  obtain ⟨e0, e1, -⟩ := idx_facts t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 10000 + 1 * p.val = r.val; omega
  | ⟨1, _⟩ => show win1_0.index t (1 : Fin 2) * 16 + 1 * k.val = k.val; omega

/-- The weight block at every point is the weight array. -/
theorem read_rhs (c : Dev nD) (t : Fin cfg1.N) (k : Fin 16) (q : Fin 10) :
    iblk1 V c 1 t (ix2 k q) = (V c (Pipeline.arrRef spec1 1) : S16x10.Idx → EReal) (ix2 k q) := by
  obtain ⟨-, -, e2, e3, -⟩ := idx_facts t
  show V c (Pipeline.arrRef spec1 1) (((cfg1.win 1).blk t).view.emb (ix2 k q)) = V c (Pipeline.arrRef spec1 1) (ix2 k q)
  refine congrArg _ (funext fun a => Fin.ext ?_)
  match a with
  | ⟨0, _⟩ => show win1_1.index t (0 : Fin 2) * 16 + 1 * k.val = k.val; omega
  | ⟨1, _⟩ => show win1_1.index t (1 : Fin 2) * 10 + 1 * q.val = q.val; omega

/-- What point `t` writes back is block `t` of the product of the two arrays as the region finds them. -/
theorem flushed_eq (c : Dev nD) (t : Fin cfg1.N) :
    (dat1 V c).flushed 2 t = ((cfg1.win 2).blk t).view.read (Elt Ideal)
      (prod (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S10000x16) hz, View.ld_unit_zero (S := S16x10) hz]
  obtain ⟨-, -, -, -, e4, e5⟩ := idx_facts t
  have ht : t.val < 10 := lt_of_lt_of_eq t.isLt N_1
  funext j
  show k1_pay1 (iblk1 V c 0 t) (iblk1 V c 1 t) j
    = prod (V c (Pipeline.arrRef spec1 0)) (V c (Pipeline.arrRef spec1 1)) (((cfg1.win 2).blk t).view.emb j)
  obtain ⟨p, q, rfl⟩ : ∃ (p : Fin 10000) (q : Fin 10), j = ix2 p q := ⟨j 0, j 1, eq_ix2 j⟩
  have hemb : ((cfg1.win 2).blk t).view.emb (ix2 p q) = ix2 (⟨t.val * 10000 + p.val, by omega⟩ : Fin 100000) q :=
    funext fun a => Fin.ext (by
      match a with
      | ⟨0, _⟩ => show win1_2.index t (0 : Fin 2) * 10000 + 1 * p.val = t.val * 10000 + p.val; omega
      | ⟨1, _⟩ => show win1_2.index t (1 : Fin 2) * 10 + 1 * q.val = q.val; omega)
  refine (pay_apply (iblk1 V c 0 t) (iblk1 V c 1 t) p q).trans ?_
  rw [hemb, prod_apply]
  refine Finset.sum_congr rfl fun k _ => ?_
  rw [read_lhs V c t p k ⟨t.val * 10000 + p.val, by omega⟩ rfl, read_rhs V c t k q]

/-- An entry of the output array is in point `t`'s block iff each coordinate is in the block's range. -/
theorem mem_blk (t : Fin cfg1.N) (i : S100000x10.Idx) :
    i ∈ ((cfg1.win 2).blk t).view.set ↔ ∀ a : Fin 2, win1_2.index t a * S10000x10.size a ≤ (i a).val ∧ (i a).val < win1_2.index t a * S10000x10.size a + S10000x10.size a := by
  show i ∈ ((View.whole main_v49).slice (win1_2.rect t)).set ↔ _
  rw [View.set_slice_whole, Rect.mem_set_unit]
  exact Iff.rfl

/-- Row r of the output lies in the block of point r / 10000: the 10 blocks cover the array. -/
theorem cover (i : S100000x10.Idx) :
    ∃ t : Fin cfg1.N, (cfg1.win 2).flush t = true ∧ i ∈ ((cfg1.win 2).blk t).view.set := by
  have hi0 : (i 0).val < 100000 := (i 0).isLt
  have hi1 : (i 1).val < 10 := (i 1).isLt
  have hN : cfg1.N = 10 := N_1
  obtain ⟨t, htv⟩ : ∃ t : Fin cfg1.N, t.val = (i 0).val / 10000 := ⟨⟨(i 0).val / 10000, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 10 ≤ (i 1).val ∧ (i 1).val < win1_2.index t (1 : Fin 2) * 10 + 10; omega

/-- THE OUTPUT ARRAY after the region's run is the product of the hidden array and the weight array
    as the region finds them. -/
theorem out_eq_prod (c : Dev nD) :
    (dat1 V c).arrAt 2 cfg1.N = prod (V c (Pipeline.arrRef spec1 0)) (V c (Pipeline.arrRef spec1 1)) :=
  (dat1 V c).arrAt_eq_of_cover 2 _ (fun t _ => flushed_eq V c t) cover

/-- The hidden array and the weight array as the region finds them, as functions of a literal index. -/
abbrev lhsArr (c : Dev nD) : S100000x16.Idx → EReal := V c (Pipeline.arrRef spec1 0)
abbrev rhsArr (c : Dev nD) : S16x10.Idx → EReal := V c (Pipeline.arrRef spec1 1)

/-- The same with the sum written out. -/
theorem out_eq_sum (c : Dev nD) :
    (dat1 V c).arrAt 2 cfg1.N = (fun i => ∑ k : Fin 16,
      lhsArr V c (ix2 (i 0 : Fin 100000) k) * rhsArr V c (ix2 k (i 1 : Fin 10)) : S100000x10.Idx → EReal) :=
  out_eq_prod V c

end Cert.KernelIdeal.RegionOne

end
-- ==== Proof.Bridge.lean ====
/-
  The kernel's network is the reference's network, at the extended reals.

  The reference runs each graph-convolution layer "the first way" (the self-loops appended to the edge list);
  the kernel runs it "the second way" (the real edges gathered and scatter-added, the loop term `dinv · dinv · h`
  added densely, the degree counted over the real edges plus one) — one function of the features, the edge list
  and the bias (GcnAlgebra).  The reference's two `dot_general`s are the sums  ∑ k, A[r, k] · B[k, q]  that the
  kernel's two matrix-product regions leave in their output arrays.  Layer by layer: the first aggregation, the
  maximum with zero, the second product, the second aggregation.
-/
import proofs.«171064_j52295521796842_2_alg».proof.Proof.RefSide
import proofs.«171064_j52295521796842_2_alg».proof.Proof.KernelRead
import proofs.«171064_j52295521796842_2_alg».proof.Proof.RegionZero
import proofs.«171064_j52295521796842_2_alg».proof.Proof.RegionOne

noncomputable section

namespace Cert.GcnBridge

open Idealize.ShloMosaic Idealize.ShloMosaic.ValueIdx Idealize.ShloMosaic.RowOps
open Cert.Gcn Cert.GcnRef
open Cert.ReferenceIdeal.Read
open Cert.KernelIdeal.GcnRun

theorem factsK16 : RowFacts 100000 16 3200000 :=
  ⟨Cert.KernelIdeal.Facts₀.bcast_S_S3200000, Cert.KernelIdeal.Facts₀.bcast_S3200000_S3200000x1_0,
    Cert.KernelIdeal.Facts₀.bcast_S3200000x1_S3200000x16_0_1, Cert.KernelIdeal.Facts₀.bcast_S_S100000,
    Cert.KernelIdeal.Facts₀.bcast_S_S100000x16, Cert.KernelIdeal.Facts₀.gather_S100000_S3200000x1_S3200000_n_0_n_n_0_1_1_wf,
    Cert.KernelIdeal.Facts₀.gather_S100000x16_S3200000x1_S3200000x16_1_0_n_n_0_1_116_wf,
    Cert.KernelIdeal.Facts₀.scatter_S100000_S3200000x1_S3200000_n_0_0_1_wf,
    Cert.KernelIdeal.Facts₀.scatter_S100000x16_S3200000x1_S3200000x16_1_0_0_1_wf⟩

theorem factsK10 : RowFacts 100000 10 3200000 :=
  ⟨Cert.KernelIdeal.Facts₀.bcast_S_S3200000, Cert.KernelIdeal.Facts₀.bcast_S3200000_S3200000x1_0,
    Cert.KernelIdeal.Facts₀.bcast_S3200000x1_S3200000x10_0_1, Cert.KernelIdeal.Facts₀.bcast_S_S100000,
    Cert.KernelIdeal.Facts₀.bcast_S_S100000x10, Cert.KernelIdeal.Facts₀.gather_S100000_S3200000x1_S3200000_n_0_n_n_0_1_1_wf,
    Cert.KernelIdeal.Facts₀.gather_S100000x10_S3200000x1_S3200000x10_1_0_n_n_0_1_110_wf,
    Cert.KernelIdeal.Facts₀.scatter_S100000_S3200000x1_S3200000_n_0_0_1_wf,
    Cert.KernelIdeal.Facts₀.scatter_S100000x10_S3200000x1_S3200000x10_1_0_0_1_wf⟩

theorem bcolN : (⟨1, ![100000]⟩ : Shape).BroadcastsInDim ⟨2, ![100000, 1]⟩ (![0] : Fin 1 → Fin 2) :=
  Cert.KernelIdeal.Facts₀.bcast_S100000_S100000x1_0
theorem bwide16 : (⟨2, ![100000, 1]⟩ : Shape).BroadcastsInDim ⟨2, ![100000, 16]⟩ (![0, 1] : Fin 2 → Fin 2) :=
  Cert.KernelIdeal.Facts₀.bcast_S100000x1_S100000x16_0_1
theorem bwide10 : (⟨2, ![100000, 1]⟩ : Shape).BroadcastsInDim ⟨2, ![100000, 10]⟩ (![0, 1] : Fin 2 → Fin 2) :=
  Cert.KernelIdeal.Facts₀.bcast_S100000x1_S100000x10_0_1

/-! ## The matrix products -/

/-- The reference's first `dot_general` is the sum the first region leaves. -/
theorem dot1_eq_prod (x0 : Arr Cert.KernelIdeal.S100000x512 .f32) (x2 : Arr Cert.KernelIdeal.S512x16 .f32) :
    val_main_v27 (F := Ideal) x0 x2 = Cert.KernelIdeal.RegionZero.prod x0 x2 := by
  funext i
  rw [val_main_v27_apply]
  unfold Cert.KernelIdeal.RegionZero.prod
  refine Finset.sum_congr rfl fun k _ => ?_
  have el : lidx_main_v27 i k = ix2 (i 0 : Fin 100000) k := funext fun a => Fin.ext (by
    match a with
    | ⟨0, _⟩ => rfl
    | ⟨1, _⟩ => rfl)
  have er : ridx_main_v27 i k = ix2 k (i 1 : Fin 16) := funext fun a => Fin.ext (by
    match a with
    | ⟨0, _⟩ => rfl
    | ⟨1, _⟩ => rfl)
  rw [el, er]
  rfl

/-! ## The first layer -/

/-- The first aggregation with its bias. -/
theorem layer1_eq (x0 : Arr Cert.KernelIdeal.S100000x512 .f32) (x1 : Arr Cert.KernelIdeal.S2x3200000 .i32)
    (x2 : Arr Cert.KernelIdeal.S512x16 .f32) (x3 : Arr Cert.KernelIdeal.S16 .f32) :
    val_main_v43 (F := Ideal) x0 x1 x2 x3
      = agg1 (Cert.KernelIdeal.RegionZero.prod x0 x2) (src x1) (dst x1) (normE x1) (normSelf x1) x3 := by
  unfold val_main_v43
  rw [layer1, dot1_eq_prod,
    layerLoops_eq_layerDense (by norm_num) (by norm_num) factsR16 factsK16 bcolN bwide16 catR]
  rfl

/-- The first layer: the maximum with zero of the first aggregation. -/
theorem hidden_eq (x0 : Arr Cert.KernelIdeal.S100000x512 .f32) (x1 : Arr Cert.KernelIdeal.S2x3200000 .i32)
    (x2 : Arr Cert.KernelIdeal.S512x16 .f32) (x3 : Arr Cert.KernelIdeal.S16 .f32) :
    val_main_v44 (F := Ideal) x0 x1 x2 x3 = T1 (Cert.KernelIdeal.RegionZero.prod x0 x2) x1 x3 := by
  unfold val_main_v44
  rw [layer1_eq]
  rfl

/-- The reference's second `dot_general` is the sum the second region leaves, of the first layer and the second weight. -/
theorem dot2_eq_prod (x0 : Arr Cert.KernelIdeal.S100000x512 .f32) (x1 : Arr Cert.KernelIdeal.S2x3200000 .i32)
    (x2 : Arr Cert.KernelIdeal.S512x16 .f32) (x3 : Arr Cert.KernelIdeal.S16 .f32) (x4 : Arr Cert.KernelIdeal.S16x10 .f32) :
    val_main_v72 (F := Ideal) x0 x1 x2 x3 x4
      = Cert.KernelIdeal.RegionOne.prod (T1 (Cert.KernelIdeal.RegionZero.prod x0 x2) x1 x3) x4 := by
  funext i
  rw [val_main_v72_apply, hidden_eq]
  unfold Cert.KernelIdeal.RegionOne.prod
  refine Finset.sum_congr rfl fun k _ => ?_
  have el : lidx_main_v72 i k = ix2 (i 0 : Fin 100000) k := funext fun a => Fin.ext (by
    match a with
    | ⟨0, _⟩ => rfl
    | ⟨1, _⟩ => rfl)
  have er : ridx_main_v72 i k = ix2 k (i 1 : Fin 10) := funext fun a => Fin.ext (by
    match a with
    | ⟨0, _⟩ => rfl
    | ⟨1, _⟩ => rfl)
  rw [el, er]
  rfl

/-! ## The network -/

/-- THE RESULT: the reference's result is the kernel's second layer of the second product of the first layer of the
    first product. -/
theorem result_eq (x0 : Arr Cert.KernelIdeal.S100000x512 .f32) (x1 : Arr Cert.KernelIdeal.S2x3200000 .i32)
    (x2 : Arr Cert.KernelIdeal.S512x16 .f32) (x3 : Arr Cert.KernelIdeal.S16 .f32) (x4 : Arr Cert.KernelIdeal.S16x10 .f32)
    (x5 : Arr Cert.KernelIdeal.S10 .f32) :
    val_main_v88 (F := Ideal) x0 x1 x2 x3 x4 x5
      = T2 (Cert.KernelIdeal.RegionOne.prod (T1 (Cert.KernelIdeal.RegionZero.prod x0 x2) x1 x3) x4) x1 x5 := by
  unfold val_main_v88
  rw [layer2, dot2_eq_prod,
    layerLoops_eq_layerDense (by norm_num) (by norm_num) factsR10 factsK10 bcolN bwide10 catR]
  rfl

end Cert.GcnBridge

end
-- ==== Proof.lean ====
/-
  Two-layer graph convolution on 100000 nodes and 3200000 edges: the kernel against its reference, at the extended reals.

  Both programs compute, twice (feature widths 16 and 10, a maximum with zero in between),
      out = D^(-1/2) (A + I) D^(-1/2) (X · W) + b
  where `A` counts the edges, `D` is the degree with the self-loop.  The reference appends the `N` self-loops to the
  edge list and runs one gather and one scatter-add over `E + N` rows; the kernel computes `X · W` in a
  matrix-product region (blocks of rows, each block one product into a zero accumulator), gathers and
  scatter-adds the `E` real edges, and adds the loop term `dinv² · (X · W)` densely, the degree being the edge
  count plus one.  The two are equal on all extended reals by splitting each sum over `E + N` rows into its first
  `E` and last `N` rows — of the last `N` exactly one lands on a given node — and then by associativity of `+`
  and commutativity of `·` alone, so the finiteness of the inputs is never used.
  The three frames: the two kernels' by their runs through the host stretches and the two regions; the
  reference's by its run with the result dropped.  The ideal pass rewrote nothing, so `preserves` is `True`.
-/
import proofs.«171064_j52295521796842_2_alg».proof.Defs
import proofs.«171064_j52295521796842_2_alg».proof.Proof.Gen.Kernel
import proofs.«171064_j52295521796842_2_alg».proof.Proof.Gen.Kernel.Skeleton
import proofs.«171064_j52295521796842_2_alg».proof.Proof.Gen.Kernel.Launch
import proofs.«171064_j52295521796842_2_alg».proof.Proof.Gen.Kernel.Points
import proofs.«171064_j52295521796842_2_alg».proof.Proof.Gen.Kernel.Frame
import proofs.«171064_j52295521796842_2_alg».proof.Proof.Gen.KernelIdeal
import proofs.«171064_j52295521796842_2_alg».proof.Proof.Gen.KernelIdeal.Skeleton
import proofs.«171064_j52295521796842_2_alg».proof.Proof.Gen.KernelIdeal.Launch
import proofs.«171064_j52295521796842_2_alg».proof.Proof.Gen.KernelIdeal.Points
import proofs.«171064_j52295521796842_2_alg».proof.Proof.Gen.KernelIdeal.Frame
import proofs.«171064_j52295521796842_2_alg».proof.Proof.Gen.ReferenceIdeal
import proofs.«171064_j52295521796842_2_alg».proof.Proof.Gen.Pre_finite_inputs
import proofs.«171064_j52295521796842_2_alg».proof.Proof.Gen.ReferenceIdeal.Run
import proofs.«171064_j52295521796842_2_alg».proof.Proof.Gen.ReferenceIdeal.Read
import proofs.«171064_j52295521796842_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run names its result; dropping it leaves the frame. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := True.intro

/-- The kernel's run ends with the second layer of the second product of the first layer of the first product;
    the reference's with its composed term of the same arguments; the two are one function (`result_eq`). -/
theorem algebraic : Cert.algebraic_KernelIdeal_ReferenceIdeal := by
  intro m ρ m' ρ' _ hagree
  refine ⟨_, Cert.KernelIdeal.GcnRun.run_value m ρ Cert.KernelIdeal.RegionZero.prod Cert.KernelIdeal.RegionOne.prod
    (fun V c => Cert.KernelIdeal.RegionZero.out_eq_prod V c) (fun V c => Cert.KernelIdeal.RegionOne.out_eq_prod V c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v88_eq, (hagree c).1, (hagree c).2.1, (hagree c).2.2.1, (hagree c).2.2.2.1,
    (hagree c).2.2.2.2.1, (hagree c).2.2.2.2.2]
  exact Cert.GcnBridge.result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
